-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S4x1024x1024 : Shape := ⟨3, ![4, 1024, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S4x1024x1024 : S_.BroadcastsInDim S4x1024x1024 (![] : Fin 0 → Fin S4x1024x1024.rank)
  reducesTo_S4x1024x1024_S_d0_1_2 : S4x1024x1024.ReducesTo [0, 1, 2] S_

variable [Facts]

def fn_part1 {F : FTy → Type} [FloatOps F] (main_arg4 : FVec F S4x1024x1024 .f32) (main_v13 : IVec S_ 1) (main_v16 : IVec S4x1024x1024 1) : IVec S_ 1 :=
  let main_c_5 : IVec S_ 1 := constantI S_ 1 1#1
  let main_v17 : IVec S_ 1 := (fun x v => Host.reduce IntOp.andi x v reducesTo_S4x1024x1024_S_d0_1_2 h_S_) main_v16 main_c_5
  let main_v18 : IVec S_ 1 := andi main_v13 main_v17
  let main_v19 : FVec F S4x1024x1024 .f32 := Host.absf main_arg4
  let main_cst_6 : FVec F S_ .f32 := constant S_ .f32 0x7F800000#32
  let main_v20 : FVec F S4x1024x1024 .f32 := broadcastInDim S4x1024x1024 ![] bcast_S_S4x1024x1024 main_cst_6
  let main_v21 : IVec S4x1024x1024 1 := cmpf .olt main_v19 main_v20
  let main_c_7 : IVec S_ 1 := constantI S_ 1 1#1
  let main_v22 : IVec S_ 1 := (fun x v => Host.reduce IntOp.andi x v reducesTo_S4x1024x1024_S_d0_1_2 h_S_) main_v21 main_c_7
  let main_v23 : IVec S_ 1 := andi main_v18 main_v22
  main_v23

def fn {F : FTy → Type} [FloatOps F] (main_arg0 : FVec F S4x2048x1024 .f32) (main_arg1 : FVec F S4x1024x1024 .f32) (main_arg2 : FVec F S4x1024x1024 .f32) (main_arg3 : FVec F S4x1024x1024 .f32) (main_arg4 : FVec F S4x1024x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x1024x1024 .f32 := Host.absf main_arg1
  let main_cst_0 : FVec F S_ .f32 := constant S_ .f32 0x7F800000#32
  let main_v5 : FVec F S4x1024x1024 .f32 := broadcastInDim S4x1024x1024 ![] bcast_S_S4x1024x1024 main_cst_0
  let main_v6 : IVec S4x1024x1024 1 := cmpf .olt main_v4 main_v5
  let main_c_1 : IVec S_ 1 := constantI S_ 1 1#1
  let main_v7 : IVec S_ 1 := (fun x v => Host.reduce IntOp.andi x v reducesTo_S4x1024x1024_S_d0_1_2 h_S_) main_v6 main_c_1
  let main_v8 : IVec S_ 1 := andi main_v3 main_v7
  let main_v9 : FVec F S4x1024x1024 .f32 := Host.absf main_arg2
  let main_cst_2 : FVec F S_ .f32 := constant S_ .f32 0x7F800000#32
  let main_v10 : FVec F S4x1024x1024 .f32 := broadcastInDim S4x1024x1024 ![] bcast_S_S4x1024x1024 main_cst_2
  let main_v11 : IVec S4x1024x1024 1 := cmpf .olt main_v9 main_v10
  let main_c_3 : IVec S_ 1 := constantI S_ 1 1#1
  let main_v12 : IVec S_ 1 := (fun x v => Host.reduce IntOp.andi x v reducesTo_S4x1024x1024_S_d0_1_2 h_S_) main_v11 main_c_3
  let main_v13 : IVec S_ 1 := andi main_v8 main_v12
  let main_v14 : FVec F S4x1024x1024 .f32 := Host.absf main_arg3
  let main_cst_4 : FVec F S_ .f32 := constant S_ .f32 0x7F800000#32
  let main_v15 : FVec F S4x1024x1024 .f32 := broadcastInDim S4x1024x1024 ![] bcast_S_S4x1024x1024 main_cst_4
  let main_v16 : IVec S4x1024x1024 1 := cmpf .olt main_v14 main_v15
  fn_part1 (F := F) main_arg4 main_v13 main_v16
-- ==== Kernel.lean ====
abbrev S4x2048x1024 : Shape := ⟨3, ![4, 2048, 1024]⟩
abbrev S4x1024x1024 : Shape := ⟨3, ![4, 1024, 1024]⟩
abbrev S1x512x1024 : Shape := ⟨3, ![1, 512, 1024]⟩
abbrev S1x1024x1024 : Shape := ⟨3, ![1, 1024, 1024]⟩
abbrev S512x1024 : Shape := ⟨2, ![512, 1024]⟩
abbrev S1024x1024 : Shape := ⟨2, ![1024, 1024]⟩
abbrev S1x256x1024 : Shape := ⟨3, ![1, 256, 1024]⟩
abbrev S1x2048x1024 : Shape := ⟨3, ![1, 2048, 1024]⟩
abbrev S256x1024 : Shape := ⟨2, ![256, 1024]⟩
abbrev S1x256x64 : Shape := ⟨3, ![1, 256, 64]⟩
abbrev S256x64 : Shape := ⟨2, ![256, 64]⟩
abbrev S1x2048x64 : Shape := ⟨3, ![1, 2048, 64]⟩
abbrev S2048x64 : Shape := ⟨2, ![2048, 64]⟩
abbrev S256x2048 : Shape := ⟨2, ![256, 2048]⟩
abbrev S256 : Shape := ⟨1, ![256]⟩
abbrev S256x1 : Shape := ⟨2, ![256, 1]⟩
abbrev S256x128 : Shape := ⟨2, ![256, 128]⟩

abbrev nBuf : Space → Nat
  | .hbm => 13
  | .vmem => 19
  | .smem => 0
  | _ => 0

abbrev bufTy : (tb : Table) → Fin (tcTables nBuf tb) → BufTy
  | .hbm, ⟨0, _⟩ => ⟨S4x2048x1024, .f32⟩
  | .hbm, ⟨1, _⟩ => ⟨S4x1024x1024, .f32⟩
  | .hbm, ⟨2, _⟩ => ⟨S4x1024x1024, .f32⟩
  | .hbm, ⟨3, _⟩ => ⟨S4x1024x1024, .f32⟩
  | .hbm, ⟨4, _⟩ => ⟨S4x1024x1024, .f32⟩
  | .hbm, ⟨5, _⟩ => ⟨S4x1024x1024, .bf16⟩
  | .hbm, ⟨6, _⟩ => ⟨S4x1024x1024, .bf16⟩
  | .hbm, ⟨7, _⟩ => ⟨S4x1024x1024, .bf16⟩
  | .hbm, ⟨8, _⟩ => ⟨S4x1024x1024, .bf16⟩
  | .hbm, ⟨9, _⟩ => ⟨S4x2048x1024, .bf16⟩
  | .hbm, ⟨10, _⟩ => ⟨S4x2048x1024, .bf16⟩
  | .hbm, ⟨11, _⟩ => ⟨S4x2048x1024, .bf16⟩
  | .hbm, ⟨12, _⟩ => ⟨S4x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x256x1024, .bf16⟩
  | .local _ .vmem, ⟨12, _⟩ => ⟨S1x256x1024, .bf16⟩
  | .local _ .vmem, ⟨13, _⟩ => ⟨S1x2048x1024, .bf16⟩
  | .local _ .vmem, ⟨14, _⟩ => ⟨S1x2048x1024, .bf16⟩
  | .local _ .vmem, ⟨15, _⟩ => ⟨S1x1024x1024, .bf16⟩
  | .local _ .vmem, ⟨16, _⟩ => ⟨S1x256x1024, .f32⟩
  | .local _ .vmem, ⟨17, _⟩ => ⟨S1x256x1024, .f32⟩
  | .local _ .vmem, ⟨18, _⟩ => ⟨S256x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc1_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x2048x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 1 → Memref sig .tc .vmem S1x2048x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, false]

abbrev stage1_3 : Fin 1 → Memref sig .tc .vmem S1x1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true, false]

abbrev stage1_4 : Fin 2 → Memref sig .tc .vmem S1x256x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  bitsLt_bf16_f32 : FTy.bits .bf16 < FTy.bits .f32
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S512x1024_S1x512x1024 : S512x1024.ShapeCasts S1x512x1024
  packedbf16_S1x512x1024_S1x512x1024_0_0_0 : (Rect.unit (s := S1x512x1024) ![0, 0, 0] S1x512x1024.size inb_S1x512x1024_S1x512x1024_0_0_0).PackedRows (EltTy.packing .bf16)
  inb_S1x256x1024_S1x256x64_0_0_0 : ∀ a, (![0, 0, 0] : Fin 3 → Nat) a + S1x256x64.size a ≤ S1x256x1024.size a
  h_S1x256x64 : 0 < S1x256x64.numel
  shapeCasts_S1x256x64_S256x64 : S1x256x64.ShapeCasts S256x64
  inb_S1x2048x1024_S1x2048x64_0_0_0 : ∀ a, (![0, 0, 0] : Fin 3 → Nat) a + S1x2048x64.size a ≤ S1x2048x1024.size a
  h_S1x2048x64 : 0 < S1x2048x64.numel
  shapeCasts_S1x2048x64_S2048x64 : S1x2048x64.ShapeCasts S2048x64
  reduces_S256x2048_S256 : S256x2048.Reduces [1] S256
  shapeCasts_S256_S256x1 : S256.ShapeCasts S256x1
  broadcasts_S256x1_S256x2048 : S256x1.Broadcasts S256x2048
  inb_S1x256x1024_S1x256x64_0_0_64 : ∀ a, (![0, 0, 64] : Fin 3 → Nat) a + S1x256x64.size a ≤ S1x256x1024.size a
  inb_S1x2048x1024_S1x2048x64_0_0_64 : ∀ a, (![0, 0, 64] : Fin 3 → Nat) a + S1x2048x64.size a ≤ S1x2048x1024.size a
  concatenates_S256x64_S256x64_S256x128_d1 : Shape.Concatenates [S256x64, S256x64] S256x128 1
  inb_S256x1024_S256x128_0_0 : ∀ a, (![0, 0] : Fin 2 → Nat) a + S256x128.size a ≤ S256x1024.size a
  h_S256x128 : 0 < S256x128.numel
  shapeCasts_S256x128_S256x128 : S256x128.ShapeCasts S256x128
  inb_S1x256x1024_S1x256x64_0_0_128 : ∀ a, (![0, 0, 128] : Fin 3 → Nat) a + S1x256x64.size a ≤ S1x256x1024.size a
  inb_S1x2048x1024_S1x2048x64_0_0_128 : ∀ a, (![0, 0, 128] : Fin 3 → Nat) a + S1x2048x64.size a ≤ S1x2048x1024.size a
  inb_S1x256x1024_S1x256x64_0_0_192 : ∀ a, (![0, 0, 192] : Fin 3 → Nat) a + S1x256x64.size a ≤ S1x256x1024.size a
  inb_S1x2048x1024_S1x2048x64_0_0_192 : ∀ a, (![0, 0, 192] : Fin 3 → Nat) a + S1x2048x64.size a ≤ S1x2048x1024.size a
  inb_S256x1024_S256x128_0_128 : ∀ a, (![0, 128] : Fin 2 → Nat) a + S256x128.size a ≤ S256x1024.size a
  inb_S1x256x1024_S1x256x64_0_0_256 : ∀ a, (![0, 0, 256] : Fin 3 → Nat) a + S1x256x64.size a ≤ S1x256x1024.size a
  inb_S1x2048x1024_S1x2048x64_0_0_256 : ∀ a, (![0, 0, 256] : Fin 3 → Nat) a + S1x2048x64.size a ≤ S1x2048x1024.size a
  inb_S1x256x1024_S1x256x64_0_0_320 : ∀ a, (![0, 0, 320] : Fin 3 → Nat) a + S1x256x64.size a ≤ S1x256x1024.size a
  inb_S1x2048x1024_S1x2048x64_0_0_320 : ∀ a, (![0, 0, 320] : Fin 3 → Nat) a + S1x2048x64.size a ≤ S1x2048x1024.size a
  inb_S256x1024_S256x128_0_256 : ∀ a, (![0, 256] : Fin 2 → Nat) a + S256x128.size a ≤ S256x1024.size a
  inb_S1x256x1024_S1x256x64_0_0_384 : ∀ a, (![0, 0, 384] : Fin 3 → Nat) a + S1x256x64.size a ≤ S1x256x1024.size a
  inb_S1x2048x1024_S1x2048x64_0_0_384 : ∀ a, (![0, 0, 384] : Fin 3 → Nat) a + S1x2048x64.size a ≤ S1x2048x1024.size a
  inb_S1x256x1024_S1x256x64_0_0_448 : ∀ a, (![0, 0, 448] : Fin 3 → Nat) a + S1x256x64.size a ≤ S1x256x1024.size a
  inb_S1x2048x1024_S1x2048x64_0_0_448 : ∀ a, (![0, 0, 448] : Fin 3 → Nat) a + S1x2048x64.size a ≤ S1x2048x1024.size a
  inb_S256x1024_S256x128_0_384 : ∀ a, (![0, 384] : Fin 2 → Nat) a + S256x128.size a ≤ S256x1024.size a
  inb_S1x256x1024_S1x256x64_0_0_512 : ∀ a, (![0, 0, 512] : Fin 3 → Nat) a + S1x256x64.size a ≤ S1x256x1024.size a
  inb_S1x2048x1024_S1x2048x64_0_0_512 : ∀ a, (![0, 0, 512] : Fin 3 → Nat) a + S1x2048x64.size a ≤ S1x2048x1024.size a
  inb_S1x256x1024_S1x256x64_0_0_576 : ∀ a, (![0, 0, 576] : Fin 3 → Nat) a + S1x256x64.size a ≤ S1x256x1024.size a
  inb_S1x2048x1024_S1x2048x64_0_0_576 : ∀ a, (![0, 0, 576] : Fin 3 → Nat) a + S1x2048x64.size a ≤ S1x2048x1024.size a
  inb_S256x1024_S256x128_0_512 : ∀ a, (![0, 512] : Fin 2 → Nat) a + S256x128.size a ≤ S256x1024.size a
  inb_S1x256x1024_S1x256x64_0_0_640 : ∀ a, (![0, 0, 640] : Fin 3 → Nat) a + S1x256x64.size a ≤ S1x256x1024.size a
  inb_S1x2048x1024_S1x2048x64_0_0_640 : ∀ a, (![0, 0, 640] : Fin 3 → Nat) a + S1x2048x64.size a ≤ S1x2048x1024.size a
  inb_S1x256x1024_S1x256x64_0_0_704 : ∀ a, (![0, 0, 704] : Fin 3 → Nat) a + S1x256x64.size a ≤ S1x256x1024.size a
  inb_S1x2048x1024_S1x2048x64_0_0_704 : ∀ a, (![0, 0, 704] : Fin 3 → Nat) a + S1x2048x64.size a ≤ S1x2048x1024.size a
  inb_S256x1024_S256x128_0_640 : ∀ a, (![0, 640] : Fin 2 → Nat) a + S256x128.size a ≤ S256x1024.size a
  inb_S1x256x1024_S1x256x64_0_0_768 : ∀ a, (![0, 0, 768] : Fin 3 → Nat) a + S1x256x64.size a ≤ S1x256x1024.size a
  inb_S1x2048x1024_S1x2048x64_0_0_768 : ∀ a, (![0, 0, 768] : Fin 3 → Nat) a + S1x2048x64.size a ≤ S1x2048x1024.size a
  inb_S1x256x1024_S1x256x64_0_0_832 : ∀ a, (![0, 0, 832] : Fin 3 → Nat) a + S1x256x64.size a ≤ S1x256x1024.size a
  inb_S1x2048x1024_S1x2048x64_0_0_832 : ∀ a, (![0, 0, 832] : Fin 3 → Nat) a + S1x2048x64.size a ≤ S1x2048x1024.size a
  inb_S256x1024_S256x128_0_768 : ∀ a, (![0, 768] : Fin 2 → Nat) a + S256x128.size a ≤ S256x1024.size a
  inb_S1x256x1024_S1x256x64_0_0_896 : ∀ a, (![0, 0, 896] : Fin 3 → Nat) a + S1x256x64.size a ≤ S1x256x1024.size a
  inb_S1x2048x1024_S1x2048x64_0_0_896 : ∀ a, (![0, 0, 896] : Fin 3 → Nat) a + S1x2048x64.size a ≤ S1x2048x1024.size a
  inb_S1x256x1024_S1x256x64_0_0_960 : ∀ a, (![0, 0, 960] : Fin 3 → Nat) a + S1x256x64.size a ≤ S1x256x1024.size a
  inb_S1x2048x1024_S1x2048x64_0_0_960 : ∀ a, (![0, 0, 960] : Fin 3 → Nat) a + S1x2048x64.size a ≤ S1x2048x1024.size a
  inb_S256x1024_S256x128_0_896 : ∀ a, (![0, 896] : Fin 2 → Nat) a + S256x128.size a ≤ S256x1024.size a
  inb_S256x1024_S256x1024_0_0 : ∀ a, (![0, 0] : Fin 2 → Nat) a + S256x1024.size a ≤ S256x1024.size a
  h_S256x1024 : 0 < S256x1024.numel
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  shapeCasts_S256x1024_S1x256x1024 : S256x1024.ShapeCasts S1x256x1024
  dot_S512x1024_S1024x1024_S512x1024_1_0_0_1_n_n_wf : DotDims.WF S512x1024 S1024x1024 S512x1024 [1] [0] [0] [1] [] []
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S4x2048x1024.size a
  hwx0_0 : ∀ i : grid0.Coords, EltTy.bits .f32 = 32 ∨ (Rect.block (s := S4x2048x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S4x1024x1024.size a
  hwx0_1 : ∀ i : grid0.Coords, EltTy.bits .bf16 = 32 ∨ (Rect.block (s := S4x1024x1024) S1x1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S4x1024x1024.size a
  hwx0_2 : ∀ i : grid0.Coords, EltTy.bits .bf16 = 32 ∨ (Rect.block (s := S4x1024x1024) S1x1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S4x1024x1024.size a
  hwx0_3 : ∀ i : grid0.Coords, EltTy.bits .bf16 = 32 ∨ (Rect.block (s := S4x1024x1024) S1x1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1024.size a ≤ S4x2048x1024.size a
  hwx0_4 : ∀ i : grid0.Coords, EltTy.bits .bf16 = 32 ∨ (Rect.block (s := S4x2048x1024) S1x512x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x1024.size a ≤ S4x2048x1024.size a
  hwx0_5 : ∀ i : grid0.Coords, EltTy.bits .bf16 = 32 ∨ (Rect.block (s := S4x2048x1024) S1x512x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x1024.size a ≤ S4x2048x1024.size a
  hwx0_6 : ∀ i : grid0.Coords, EltTy.bits .bf16 = 32 ∨ (Rect.block (s := S4x2048x1024) S1x512x1024.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x1024.size a ≤ S4x2048x1024.size a
  hwx1_0 : ∀ i : grid1.Coords, EltTy.bits .bf16 = 32 ∨ (Rect.block (s := S4x2048x1024) S1x256x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x2048x1024.size a ≤ S4x2048x1024.size a
  hwx1_1 : ∀ i : grid1.Coords, EltTy.bits .bf16 = 32 ∨ (Rect.block (s := S4x2048x1024) S1x2048x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2048x1024.size a ≤ S4x2048x1024.size a
  hwx1_2 : ∀ i : grid1.Coords, EltTy.bits .bf16 = 32 ∨ (Rect.block (s := S4x2048x1024) S1x2048x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1024x1024.size a ≤ S4x1024x1024.size a
  hwx1_3 : ∀ i : grid1.Coords, EltTy.bits .bf16 = 32 ∨ (Rect.block (s := S4x1024x1024) S1x1024x1024.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x256x1024.size a ≤ S4x2048x1024.size a
  hwx1_4 : ∀ i : grid1.Coords, EltTy.bits .f32 = 32 ∨ (Rect.block (s := S4x2048x1024) S1x256x1024.size (cc1_transform_4 i) (hinb1_4 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S1x512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S1x512x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_2) S1x512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v4_0) S1x256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4_1) S1x2048x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4_2) S1x2048x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x1024x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S1x256x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4x2048x1024 : Shape := ⟨3, ![4, 2048, 1024]⟩
abbrev S4x1024x1024 : Shape := ⟨3, ![4, 1024, 1024]⟩
abbrev S4x2048x16x64 : Shape := ⟨4, ![4, 2048, 16, 64]⟩
abbrev S4x16x2048x64 : Shape := ⟨4, ![4, 16, 2048, 64]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩

abbrev nBuf : Space → Nat
  | .hbm => 36
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x1024x1024, .f32⟩
  | .hbm, ⟨2, _⟩ => ⟨S4x1024x1024, .f32⟩
  | .hbm, ⟨3, _⟩ => ⟨S4x1024x1024, .f32⟩
  | .hbm, ⟨4, _⟩ => ⟨S4x1024x1024, .f32⟩
  | .hbm, ⟨5, _⟩ => ⟨S4x2048x1024, .f32⟩
  | .hbm, ⟨6, _⟩ => ⟨S4x2048x16x64, .f32⟩
  | .hbm, ⟨7, _⟩ => ⟨S4x16x2048x64, .f32⟩
  | .hbm, ⟨8, _⟩ => ⟨S4x2048x1024, .f32⟩
  | .hbm, ⟨9, _⟩ => ⟨S4x2048x16x64, .f32⟩
  | .hbm, ⟨10, _⟩ => ⟨S4x16x2048x64, .f32⟩
  | .hbm, ⟨11, _⟩ => ⟨S4x2048x1024, .f32⟩
  | .hbm, ⟨12, _⟩ => ⟨S4x2048x16x64, .f32⟩
  | .hbm, ⟨13, _⟩ => ⟨S4x16x2048x64, .f32⟩
  | .hbm, ⟨14, _⟩ => ⟨S4x16x2048x2048, .f32⟩
  | .hbm, ⟨15, _⟩ => ⟨S_, .f32⟩
  | .hbm, ⟨16, _⟩ => ⟨S4x16x2048x2048, .f32⟩
  | .hbm, ⟨17, _⟩ => ⟨S4x16x2048x2048, .f32⟩
  | .hbm, ⟨18, _⟩ => ⟨S_, .f32⟩
  | .hbm, ⟨19, _⟩ => ⟨S4x16x2048, .f32⟩
  | .hbm, ⟨20, _⟩ => ⟨S_, .f32⟩
  | .hbm, ⟨21, _⟩ => ⟨S4x16x2048, .f32⟩
  | .hbm, ⟨22, _⟩ => ⟨S4x16x2048, .f32⟩
  | .hbm, ⟨23, _⟩ => ⟨S4x16x2048x1, .f32⟩
  | .hbm, ⟨24, _⟩ => ⟨S4x16x2048x2048, .f32⟩
  | .hbm, ⟨25, _⟩ => ⟨S4x16x2048x2048, .f32⟩
  | .hbm, ⟨26, _⟩ => ⟨S4x16x2048x2048, .f32⟩
  | .hbm, ⟨27, _⟩ => ⟨S_, .f32⟩
  | .hbm, ⟨28, _⟩ => ⟨S4x16x2048, .f32⟩
  | .hbm, ⟨29, _⟩ => ⟨S4x16x2048x1, .f32⟩
  | .hbm, ⟨30, _⟩ => ⟨S4x16x2048x2048, .f32⟩
  | .hbm, ⟨31, _⟩ => ⟨S4x16x2048x2048, .f32⟩
  | .hbm, ⟨32, _⟩ => ⟨S4x16x2048x64, .f32⟩
  | .hbm, ⟨33, _⟩ => ⟨S4x2048x16x64, .f32⟩
  | .hbm, ⟨34, _⟩ => ⟨S4x2048x1024, .f32⟩
  | .hbm, ⟨35, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]

class Facts₀ : Prop where
  shapeCasts_S4x2048x1024_S4x2048x16x64 : S4x2048x1024.ShapeCasts S4x2048x16x64
  transposes_S4x2048x16x64_S4x16x2048x64_0_2_1_3 : S4x2048x16x64.Transposes [0, 2, 1, 3] S4x16x2048x64
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  dot_S4x2048x1024_S4x1024x1024_S4x2048x1024_2_1_1_2_0_0_wf : DotDims.WF S4x2048x1024 S4x1024x1024 S4x2048x1024 [2] [1] [1] [2] [0] [0]
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x2048x1024_S4x1024x1024_S4x2048x1024_2_1_1_2_0_0 : DotDims S4x2048x1024 S4x1024x1024 S4x2048x1024 where
  lhsContracting := [2]
  rhsContracting := [1]
  lhsNonContracting := [1]
  rhsNonContracting := [2]
  lhsBatch := [0]
  rhsBatch := [0]
  wf := dot_S4x2048x1024_S4x1024x1024_S4x2048x1024_2_1_1_2_0_0_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.Spec.lean ====
/-
  Batched multi-head attention on the extended reals, entry by entry.

  For each of 4 samples: an input of 2048 rows and 1024 columns is multiplied by three per-sample 1024 x 1024 matrices
  into queries, keys and values. The 1024 columns are 16 heads of 64 columns each. Within a head, the score of query
  row n against key row m is the dot product of their 64 columns times one eighth; a row of 2048 scores is turned into
  weights by subtracting the row's maximum, exponentiating and dividing by the row's sum; the weighted sum of the value
  rows gives the head's 64 output columns. The heads' outputs, side by side, are multiplied by a fourth matrix.

  Column e of the mixed array belongs to head e / 64, whose columns are 64 * (e / 64) + c for c < 64.
-/
import Idealize.ShloMosaic.PureOps.Ideal
import Idealize.ShloMosaic.Lib.ValueIdx

noncomputable section

namespace Cert.Attn

open Idealize.ShloMosaic Idealize.ShloMosaic.ValueIdx

/-- The scale one eighth, as the f32 word both programs carry. -/
abbrev scaleWord : EReal := Ideal.ofBits .f32 0x3E000000#32
/-- The start value of a row maximum: the f32 word of minus infinity. -/
abbrev startWord : EReal := Ideal.ofBits .f32 0xFF800000#32

/-- The scaled score of a query row `q` (64 columns) against key row `m`. -/
def score (q : Fin 64 → EReal) (k : Fin 2048 → Fin 64 → EReal) (m : Fin 2048) : EReal :=
  (∑ c : Fin 64, q c * k m c) * scaleWord

/-- The unnormalized weight of key row `m`: the exponential of its score less the row's maximum. -/
def weight (q : Fin 64 → EReal) (k : Fin 2048 → Fin 64 → EReal) (m : Fin 2048) : EReal :=
  Ideal.exp (score q k m - (Finset.univ : Finset (Fin 2048)).fold max startWord (score q k))

/-- One output entry of a head: the value column `v` averaged with the normalized weights. -/
def attend (q : Fin 64 → EReal) (k : Fin 2048 → Fin 64 → EReal) (v : Fin 2048 → EReal) : EReal :=
  ∑ m : Fin 2048, Ideal.div (weight q k m) (∑ m' : Fin 2048, weight q k m') * v m

/-- A per-sample product: entry (b, n, e) of x times w, contracted over the 1024 shared columns. -/
def proj (x : (⟨3, ![4, 2048, 1024]⟩ : Shape).Idx → EReal) (w : (⟨3, ![4, 1024, 1024]⟩ : Shape).Idx → EReal)
    (b : Fin 4) (n : Fin 2048) (e : Fin 1024) : EReal :=
  ∑ k : Fin 1024, x (ix3 b n k) * w (ix3 b k e)

/-- Column `c` of the head that column `e` belongs to. -/
def headCol (e : Fin 1024) (c : Fin 64) : Fin 1024 := ⟨64 * (e.val / 64) + c.val, by omega⟩

/-- The heads' outputs side by side: entry (b, n, e) is head e / 64's output at row n, column e. -/
def mixed (x : (⟨3, ![4, 2048, 1024]⟩ : Shape).Idx → EReal) (wq wk wv : (⟨3, ![4, 1024, 1024]⟩ : Shape).Idx → EReal)
    (b : Fin 4) (n : Fin 2048) (e : Fin 1024) : EReal :=
  attend (fun c => proj x wq b n (headCol e c)) (fun m c => proj x wk b m (headCol e c)) (fun m => proj x wv b m e)

/-- The result, by coordinates. -/
def outAt (x : (⟨3, ![4, 2048, 1024]⟩ : Shape).Idx → EReal) (wq wk wv wo : (⟨3, ![4, 1024, 1024]⟩ : Shape).Idx → EReal)
    (b : Fin 4) (n : Fin 2048) (j : Fin 1024) : EReal :=
  ∑ e : Fin 1024, mixed x wq wk wv b n e * wo (ix3 b e j)

/-- The result array. -/
def G (x : (⟨3, ![4, 2048, 1024]⟩ : Shape).Idx → EReal) (wq wk wv wo : (⟨3, ![4, 1024, 1024]⟩ : Shape).Idx → EReal) :
    (⟨3, ![4, 2048, 1024]⟩ : Shape).Idx → EReal :=
  fun i => outAt x wq wk wv wo (i 0) (i 1) (i 2)

end Cert.Attn

end
-- ==== Proof.RefIsSpec.lean ====
/-
  The reference program computes batched multi-head attention as the specification states it.

  Read one operation at a time, at an index given by coordinates: the three per-sample products are the
  specification's projections; a reshape of the 1024 columns into 16 heads of 64 followed by the exchange of the
  row and head axes reads, at (b, h, n, d), the projection at row n and column 64 * h + d; the scaled scores, the
  row maximum, the exponentials, the row sums and the quotients are the specification's weights; the weighted sum
  of the value rows is one head's output; the exchange back and the reshape put head e / 64, column e % 64 at
  column e; the last product is the result.
-/
import proofs.«180985_j31430570672467_2_alg».proof.Proof.Gen.ReferenceIdeal.Read
import proofs.«180985_j31430570672467_2_alg».proof.Proof.Spec

noncomputable section

namespace Cert.RefSide

open Idealize.ShloMosaic Idealize.ShloMosaic.ValueIdx
open Cert.ReferenceIdeal Cert.ReferenceIdeal.Read Cert.Attn

/-- The input array: 4 samples of 2048 rows and 1024 columns. -/
abbrev XArr : Type := (⟨S4x2048x1024, .f32⟩ : BufTy).Contents (Elt Ideal)
/-- A weight array: 4 samples of a 1024 x 1024 matrix. -/
abbrev WArr : Type := (⟨S4x1024x1024, .f32⟩ : BufTy).Contents (Elt Ideal)

/-- Column c of head h among the 1024 columns. -/
def hcol (h : Fin 16) (c : Fin 64) : Fin 1024 := ⟨64 * h.val + c.val, by omega⟩

/-! ## The projections -/

/-- A per-sample product at (b, n, e) is the specification's projection. -/
theorem v0_at (x : XArr) (w : WArr) (b : Fin 4) (n : Fin 2048) (e : Fin 1024) :
    val_main_v0 (F := Ideal) x w (ix3 b n e) = proj x w b n e := by
  rw [val_main_v0_apply]
  unfold proj
  refine Finset.sum_congr rfl fun k _ => ?_
  have el : lidx_main_v0 (ix3 b n e) k = ix3 b n k :=
    funext fun a => Fin.ext (by match a with | ⟨0, _⟩ => rfl | ⟨1, _⟩ => rfl | ⟨2, _⟩ => rfl)
  have er : ridx_main_v0 (ix3 b n e) k = ix3 b k e :=
    funext fun a => Fin.ext (by match a with | ⟨0, _⟩ => rfl | ⟨1, _⟩ => rfl | ⟨2, _⟩ => rfl)
  rw [el, er]

/-- The columns split into heads, then rows and heads exchanged: at (b, h, n, d) the index read in the product
    is (b, n, 64 * h + d). -/
theorem idx_split (b : Fin 4) (h : Fin 16) (n : Fin 2048) (d : Fin 64) :
    idx_main_v1 (idx_main_v2 (ix4 b h n d)) = ix3 b n (hcol h d) :=
  funext fun a => Fin.ext (by
    have hb := b.isLt; have hh := h.isLt; have hn := n.isLt; have hd := d.isLt
    match a with
    | ⟨0, _⟩ =>
      show (((b.val * 2048 + n.val) * 16 + h.val) * 64 + d.val) / 2097152 = b.val
      omega
    | ⟨1, _⟩ =>
      show (((b.val * 2048 + n.val) * 16 + h.val) * 64 + d.val) / 1024 % 2048 = n.val
      omega
    | ⟨2, _⟩ =>
      show (((b.val * 2048 + n.val) * 16 + h.val) * 64 + d.val) % 1024 = 64 * h.val + d.val
      omega)

/-- A projection arranged by heads: at (b, h, n, d) it is the projection at row n, column 64 * h + d. -/
theorem v2_at (x : XArr) (w : WArr) (b : Fin 4) (h : Fin 16) (n : Fin 2048) (d : Fin 64) :
    val_main_v2 (F := Ideal) x w (ix4 b h n d) = proj x w b n (hcol h d) := by
  rw [val_main_v2_apply, val_main_v1_apply, idx_split]
  exact v0_at x w b n (hcol h d)

/-- The key projection is the same operation on another weight array. -/
theorem v5_at (x : XArr) (w : WArr) (b : Fin 4) (h : Fin 16) (n : Fin 2048) (d : Fin 64) :
    val_main_v5 (F := Ideal) x w (ix4 b h n d) = proj x w b n (hcol h d) :=
  v2_at x w b h n d

/-- The value projection likewise. -/
theorem v8_at (x : XArr) (w : WArr) (b : Fin 4) (h : Fin 16) (n : Fin 2048) (d : Fin 64) :
    val_main_v8 (F := Ideal) x w (ix4 b h n d) = proj x w b n (hcol h d) :=
  v2_at x w b h n d

/-! ## Scores, row maxima, weights -/

/-- Query row n of head h of sample b: its 64 columns. -/
def qrow (x : XArr) (wq : WArr) (b : Fin 4) (h : Fin 16) (n : Fin 2048) : Fin 64 → EReal :=
  fun c => proj x wq b n (hcol h c)

/-- The key rows of head h of sample b. -/
def krows (x : XArr) (wk : WArr) (b : Fin 4) (h : Fin 16) : Fin 2048 → Fin 64 → EReal :=
  fun m c => proj x wk b m (hcol h c)

/-- The scaled product of queries and keys at (b, h, n, m) is the specification's score. -/
theorem v11_at (x : XArr) (wq wk : WArr) (b : Fin 4) (h : Fin 16) (n m : Fin 2048) :
    val_main_v11 (F := Ideal) x wq wk (ix4 b h n m) = score (qrow x wq b h n) (krows x wk b h) m := by
  rw [val_main_v11_apply, val_main_v9_apply, val_main_v10_apply, val_main_cst_apply, Ideal.mulf_def, Ideal.ofBits_def]
  unfold score qrow krows
  refine congrArg (fun t : EReal => t * scaleWord) ?_
  refine Finset.sum_congr rfl fun k _ => ?_
  have el : lidx_main_v9 (ix4 b h n m) k = ix4 b h n k :=
    funext fun a => Fin.ext (by match a with | ⟨0, _⟩ => rfl | ⟨1, _⟩ => rfl | ⟨2, _⟩ => rfl | ⟨3, _⟩ => rfl)
  have er : ridx_main_v9 (ix4 b h n m) k = ix4 b h m k :=
    funext fun a => Fin.ext (by match a with | ⟨0, _⟩ => rfl | ⟨1, _⟩ => rfl | ⟨2, _⟩ => rfl | ⟨3, _⟩ => rfl)
  rw [el, er, v2_at, v5_at]

/-- The index a reduction along the last axis inserts: (b, h, n) with column k put back. -/
theorem lift_last (hR : S4x16x2048x2048.Reduces [3] S4x16x2048) (b : Fin 4) (h : Fin 16) (n k : Fin 2048) :
    hR.lift (ix3 b h n) k = ix4 b h n k :=
  funext fun a => Fin.ext (by match a with | ⟨0, _⟩ => rfl | ⟨1, _⟩ => rfl | ⟨2, _⟩ => rfl | ⟨3, _⟩ => rfl)

/-- The maximum-reduce along the last axis at (b, h, n): the fold of max, from the start word, over the row of
    scores. -/
theorem v12_at (x : XArr) (wq wk : WArr) (b : Fin 4) (h : Fin 16) (n : Fin 2048) :
    val_main_v12 (F := Ideal) x wq wk (ix3 b h n)
      = (Finset.univ : Finset (Fin 2048)).fold max startWord (score (qrow x wq b h n) (krows x wk b h)) := by
  have hR : S4x16x2048x2048.Reduces [3] S4x16x2048 := by decide
  unfold val_main_v12
  refine (Host.reduce_eq_fold_single (FloatOps.maximumf (F := Ideal) (φ := .f32)) _ _ _ hR _ (ix3 b h n)).trans ?_
  have e : (val_main_v11 (F := Ideal) x wq wk ∘ hR.lift (ix3 b h n) : Fin 2048 → EReal)
      = score (qrow x wq b h n) (krows x wk b h) :=
    funext fun m => (congrArg (val_main_v11 (F := Ideal) x wq wk) (lift_last hR b h n m)).trans (v11_at x wq wk b h n m)
  exact congrArg (fun f : Fin 2048 → EReal => (Finset.univ : Finset (Fin 2048)).fold max startWord f) e

/-- The maximum of the start word and that fold is the fold: a fold of max from a start value is at least it. -/
theorem v14_at (x : XArr) (wq wk : WArr) (b : Fin 4) (h : Fin 16) (n : Fin 2048) :
    val_main_v14 (F := Ideal) x wq wk (ix3 b h n)
      = (Finset.univ : Finset (Fin 2048)).fold max startWord (score (qrow x wq b h n) (krows x wk b h)) := by
  rw [val_main_v14_apply, val_main_v13_apply, val_main_cst_1_apply, v12_at, Ideal.maximumf_def, Ideal.ofBits_def]
  exact max_eq_right ((Finset.le_fold_max _).mpr (Or.inl le_rfl))

/-- A row statistic kept as a column and broadcast back over the row reads, at (b, h, n, m), the statistic at
    (b, h, n). -/
theorem idx_keep16 (b : Fin 4) (h : Fin 16) (n m : Fin 2048) :
    idx_main_v15 (idx_main_v16 (ix4 b h n m)) = ix3 b h n :=
  funext fun a => Fin.ext (by match a with | ⟨0, _⟩ => rfl | ⟨1, _⟩ => rfl | ⟨2, _⟩ => rfl)

theorem idx_keep21 (b : Fin 4) (h : Fin 16) (n m : Fin 2048) :
    idx_main_v20 (idx_main_v21 (ix4 b h n m)) = ix3 b h n :=
  funext fun a => Fin.ext (by match a with | ⟨0, _⟩ => rfl | ⟨1, _⟩ => rfl | ⟨2, _⟩ => rfl)

/-- The exponential of a score less its row's maximum is the specification's weight. -/
theorem v18_at (x : XArr) (wq wk : WArr) (b : Fin 4) (h : Fin 16) (n m : Fin 2048) :
    val_main_v18 (F := Ideal) x wq wk (ix4 b h n m) = weight (qrow x wq b h n) (krows x wk b h) m := by
  rw [val_main_v18_apply, val_main_v17_apply, val_main_v16_apply, val_main_v15_apply, idx_keep16, v14_at, v11_at,
    Ideal.subf_def, Ideal.hostUnary_exp_def]
  rfl

/-- The row sum of the weights: the zero word plus the sum. -/
theorem v19_at (x : XArr) (wq wk : WArr) (b : Fin 4) (h : Fin 16) (n : Fin 2048) :
    val_main_v19 (F := Ideal) x wq wk (ix3 b h n) = ∑ m : Fin 2048, weight (qrow x wq b h n) (krows x wk b h) m := by
  rw [val_main_v19_apply, val_main_cst_2_apply, Ideal.ofBits_def, Ideal.ofBits_zero_f32, zero_add]
  refine Finset.sum_congr rfl fun m _ => ?_
  have e : idx_main_v19 (ix3 b h n) m = ix4 b h n m :=
    funext fun a => Fin.ext (by match a with | ⟨0, _⟩ => rfl | ⟨1, _⟩ => rfl | ⟨2, _⟩ => rfl | ⟨3, _⟩ => rfl)
  rw [e, v18_at]

/-- The normalized weight. -/
theorem v22_at (x : XArr) (wq wk : WArr) (b : Fin 4) (h : Fin 16) (n m : Fin 2048) :
    val_main_v22 (F := Ideal) x wq wk (ix4 b h n m)
      = Ideal.div (weight (qrow x wq b h n) (krows x wk b h) m) (∑ m' : Fin 2048, weight (qrow x wq b h n) (krows x wk b h) m') := by
  rw [val_main_v22_apply, val_main_v21_apply, val_main_v20_apply, idx_keep21, v19_at, v18_at, Ideal.hostDivf_def]

/-! ## One head's output, and the heads side by side -/

/-- The weighted sum of the value rows at (b, h, n, d) is the specification's head output. -/
theorem v23_at (x : XArr) (wq wk wv : WArr) (b : Fin 4) (h : Fin 16) (n : Fin 2048) (d : Fin 64) :
    val_main_v23 (F := Ideal) x wq wk wv (ix4 b h n d)
      = attend (qrow x wq b h n) (krows x wk b h) (fun m => proj x wv b m (hcol h d)) := by
  rw [val_main_v23_apply]
  unfold attend
  refine Finset.sum_congr rfl fun m _ => ?_
  have el : lidx_main_v23 (ix4 b h n d) m = ix4 b h n m :=
    funext fun a => Fin.ext (by match a with | ⟨0, _⟩ => rfl | ⟨1, _⟩ => rfl | ⟨2, _⟩ => rfl | ⟨3, _⟩ => rfl)
  have er : ridx_main_v23 (ix4 b h n d) m = ix4 b h m d :=
    funext fun a => Fin.ext (by match a with | ⟨0, _⟩ => rfl | ⟨1, _⟩ => rfl | ⟨2, _⟩ => rfl | ⟨3, _⟩ => rfl)
  rw [el, er, v22_at, v8_at]

/-- The head of column e and the column's place in it. -/
def headOf (e : Fin 1024) : Fin 16 := ⟨e.val / 64, by omega⟩
def colOf (e : Fin 1024) : Fin 64 := ⟨e.val % 64, by omega⟩

/-- Rows and heads exchanged back, then the heads' columns merged: at (b, n, e) the index read in the heads'
    outputs is (b, e / 64, n, e % 64). -/
theorem idx_merge (b : Fin 4) (n : Fin 2048) (e : Fin 1024) :
    idx_main_v24 (idx_main_v25 (ix3 b n e)) = ix4 b (headOf e) n (colOf e) :=
  funext fun a => Fin.ext (by
    have hb := b.isLt; have hn := n.isLt; have he := e.isLt
    match a with
    | ⟨0, _⟩ =>
      show ((b.val * 2048 + n.val) * 1024 + e.val) / 2097152 = b.val
      omega
    | ⟨1, _⟩ =>
      show ((b.val * 2048 + n.val) * 1024 + e.val) / 64 % 16 = e.val / 64
      omega
    | ⟨2, _⟩ =>
      show ((b.val * 2048 + n.val) * 1024 + e.val) / 1024 % 2048 = n.val
      omega
    | ⟨3, _⟩ =>
      show ((b.val * 2048 + n.val) * 1024 + e.val) % 64 = e.val % 64
      omega)

/-- Column e is column e % 64 of head e / 64. -/
theorem hcol_self (e : Fin 1024) : hcol (headOf e) (colOf e) = e :=
  Fin.ext (by show 64 * (e.val / 64) + e.val % 64 = e.val; omega)

/-- The heads' outputs merged at (b, n, e) are the specification's mixed array. -/
theorem v25_at (x : XArr) (wq wk wv : WArr) (b : Fin 4) (n : Fin 2048) (e : Fin 1024) :
    val_main_v25 (F := Ideal) x wq wk wv (ix3 b n e) = mixed x wq wk wv b n e := by
  rw [val_main_v25_apply, val_main_v24_apply, idx_merge, v23_at, hcol_self]
  rfl

/-! ## The result -/

/-- The last product at (b, n, j). -/
theorem v26_at (x : XArr) (wq wk wv wo : WArr) (b : Fin 4) (n : Fin 2048) (j : Fin 1024) :
    val_main_v26 (F := Ideal) x wq wk wv wo (ix3 b n j) = outAt x wq wk wv wo b n j := by
  rw [val_main_v26_apply]
  unfold outAt
  refine Finset.sum_congr rfl fun e _ => ?_
  have el : lidx_main_v26 (ix3 b n j) e = ix3 b n e :=
    funext fun a => Fin.ext (by match a with | ⟨0, _⟩ => rfl | ⟨1, _⟩ => rfl | ⟨2, _⟩ => rfl)
  have er : ridx_main_v26 (ix3 b n j) e = ix3 b e j :=
    funext fun a => Fin.ext (by match a with | ⟨0, _⟩ => rfl | ⟨1, _⟩ => rfl | ⟨2, _⟩ => rfl)
  rw [el, er, v25_at]

/-- The reference program's result is the specification's array. -/
theorem ref_eq_spec (x0 : (⟨Cert.ReferenceIdeal.S4x2048x1024, .f32⟩ : BufTy).Contents (Elt Ideal))
    (x1 x2 x3 x4 : (⟨Cert.ReferenceIdeal.S4x1024x1024, .f32⟩ : BufTy).Contents (Elt Ideal)) :
    Cert.ReferenceIdeal.Read.val_main_v26 (F := Ideal) x0 x1 x2 x3 x4 = Cert.Attn.G x0 x1 x2 x3 x4 := by
  funext i
  obtain ⟨b, n, j, rfl⟩ : ∃ (b : Fin 4) (n : Fin 2048) (j : Fin 1024), i = ix3 b n j := ⟨i 0, i 1, i 2, eq_ix3 i⟩
  exact v26_at x0 x1 x2 x3 x4 b n j

end Cert.RefSide

end
-- ==== Proof.KernelRun.lean ====
/-
  The kernel's run with its result named.

  The program is four changes of format on the host, then the two kernels. Every weakly fair execution ends, nothing
  faulting, with the result array holding what the second kernel's write-backs leave, and the five argument arrays as
  they were launched. What the write-backs leave is then unfolded, kernel by kernel, back to the arguments.
-/
import proofs.«180985_j31430570672467_2_alg».proof.Proof.Gen.KernelIdeal.Frame

set_option maxRecDepth 16384

noncomputable section

namespace Cert.KSide

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result array ends at the last boundary's contents, and
    the arguments end as launched. -/
theorem run_named : θ_run defs (onTc (τ := τ) (main (F := F))) ⟨m, fun _ => 0, ρ⟩ (fun r => ∀ c : Dev nD,
      r.2.mem ((c.tc : Thread nD τ).loc main_v5) = W3 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v5 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩)

end Cert.KSide

end
-- ==== Proof.LibPlainDot.lean ====
/-
  A plain matrix product read at an entry, on the extended reals.

  For an `m × k` matrix `A` and a `k × n` matrix `B` the product contracted over the shared axis has, at `(a, b)`, the
  value `∑ c, A (a, c) · B (c, b)`. On the extended reals a kernel's matrix unit accumulating into a zero tile and the
  host's product are this same sum: there is no rounding and no order of accumulation to tell them apart.
-/
import Idealize.ShloMosaic.PureOps.Ideal.Laws
import Idealize.ShloMosaic.Lib.ValueIdx
import Idealize.ShloMosaic.Lib.StackMember
import Idealize.ShloMosaic.Lib.ValueLayout

namespace Cert.LibPlainDot

open Idealize.ShloMosaic Idealize.ShloMosaic.ValueIdx

/-- A matrix unit's product into the zero tile is the host's product of the same operands, entry by entry. -/
theorem matmul_zero_eq_dotGeneral {sl sr so : Shape} {φ₁ φ₂ : FTy} (d : DotDims sl sr so) (prec : Option ContractPrecision)
    (A : FVec Ideal sl φ₁) (B : FVec Ideal sr φ₂) (j : so.Idx) :
    FloatOps.matmul d prec A B (constant (F := Ideal) so .f32 0x00000000#32) j = Host.dotGeneral (F := Ideal) d none A B j :=
  (Ideal.matmul_constant_zero_apply d prec A B j).trans (Ideal.dotGeneral_apply d none .single A B j).symm

/-- The plain product into the zero tile, at `(a, b)`, is `∑ c, A (a, c) · B (c, b)`. -/
theorem matmul_plain_zero_apply {m k n : ℕ} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant (F := Ideal) ⟨2, ![m, n]⟩ .f32 0x00000000#32) (ix2 a b)
      = ∑ c : Fin k, A (ix2 a c) * B (ix2 c b) :=
  (matmul_zero_eq_dotGeneral (DotDims.plain m k n) prec A B (ix2 a b)).trans
    (StackMember.dotGeneral_plain_apply none A B a b)

/-- The plain product with the right operand given transposed: at `(a, b)` it is `∑ c, A (a, c) · B (b, c)`. -/
theorem matmul_plain_transposed_apply {m k n : ℕ} {φ₁ φ₂ : FTy} (prec : Option ContractPrecision)
    (A : FVec Ideal ⟨2, ![m, k]⟩ φ₁) (B : FVec Ideal ⟨2, ![n, k]⟩ φ₂)
    (h : (⟨2, ![n, k]⟩ : Shape).Transposes [1, 0] ⟨2, ![k, n]⟩) (a : Fin m) (b : Fin n) :
    FloatOps.matmul (DotDims.plain m k n) prec A (transpose ⟨2, ![k, n]⟩ [1, 0] B h)
        (constant (F := Ideal) ⟨2, ![m, n]⟩ .f32 0x00000000#32) (ix2 a b)
      = ∑ c : Fin k, A (ix2 a c) * B (ix2 b c) :=
  (matmul_plain_zero_apply prec A _ a b).trans
    (Finset.sum_congr rfl fun c _ => congrArg (A (ix2 a c) * ·) (transpose_ix2_apply B h c b))

/-- The host's plain product with the right operand given transposed: at `(a, b)` it is `∑ c, A (a, c) · B (b, c)`. -/
theorem dotGeneral_plain_transposed_apply {m k n : ℕ} {φ₁ φ₂ : FTy} (prec : Option ContractPrecision)
    (A : FVec Ideal ⟨2, ![m, k]⟩ φ₁) (B : FVec Ideal ⟨2, ![n, k]⟩ φ₂)
    (h : (⟨2, ![n, k]⟩ : Shape).Transposes [1, 0] ⟨2, ![k, n]⟩) (a : Fin m) (b : Fin n) :
    Host.dotGeneral (F := Ideal) (DotDims.plain m k n) prec A (transpose ⟨2, ![k, n]⟩ [1, 0] B h) (ix2 a b)
      = ∑ c : Fin k, A (ix2 a c) * B (ix2 b c) :=
  (StackMember.dotGeneral_plain_apply prec A _ a b).trans
    (Finset.sum_congr rfl fun c _ => congrArg (A (ix2 a c) * ·) (transpose_ix2_apply B h c b))

end Cert.LibPlainDot
-- ==== Proof.Region0.lean ====
/-
  The three projections.

  The first stage of the kernel runs over 4 x 4 grid points (b, j). At point (b, j) it loads rows 512 j ... 512 j + 511
  of sample b of the input (a block of 512 rows and 1024 columns) and sample b's three 1024 x 1024 weight matrices,
  and stores, into the same rows of sample b of each of three output arrays, the matrix product of the input block with
  one of the weight matrices. On the extended reals a change of float format is the identity and a matrix unit
  accumulating into a zero tile is the exact sum, so entry (p, e) of a stored block is the sum over the 1024 shared
  columns k of input (b, 512 j + p, k) times weight (b, k, e).

  The 16 blocks of an output array tile it: entry (b, n, e) lies in the block of the point at sample b and row block
  n / 512. So after the stage each output array is, entry by entry, the per-sample product of the input
  array with one weight array, both as the stage found them.

  Below: the two operands of the product read at an entry (a block with its leading unit axis dropped), one entry of a
  stored block as a sum, the same entry as an entry of the per-sample product once the loaded blocks are placed in their
  arrays, then per output array the relations between the block positions at a grid point, the block a point writes back,
  membership in a block, the tiling, and the array after the stage.
-/
import proofs.«180985_j31430570672467_2_alg».proof.Proof.Gen.KernelIdeal.Frame
import proofs.«180985_j31430570672467_2_alg».proof.Proof.Spec
import proofs.«180985_j31430570672467_2_alg».proof.Proof.LibPlainDot
import Idealize.ShloMosaic.Lib.Pipeline.Value
import Idealize.ShloMosaic.Lib.ValueIdx
import Idealize.ShloMosaic.Lib.ValueLayout

set_option maxRecDepth 16384

noncomputable section

namespace Cert.KSide.R0

open Cert.KernelIdeal Cert.KernelIdeal.Gen Idealize.ShloMosaic Idealize.ShloMosaic.TcCoe Idealize.SL.Sem
open Idealize.ShloMosaic.ValueIdx
open Idealize.ShloMosaic.Pipeline (Dat)

/-! ## The product's operands and one entry of a stored block -/

/-- The kernel's contraction record is the plain product of a 512 x 1024 by a 1024 x 1024 matrix. -/
theorem dims_plain : dot_S512x1024_S1024x1024_S512x1024_1_0_0_1_n_n = DotDims.plain 512 1024 1024 := rfl

/-- The left operand of all three products: the input block with its unit axis dropped, entry (p, k). -/
theorem lhs_apply (x0 : Vec Ideal S1x512x1024 .f32) (p : Fin 512) (k : Fin 1024) :
    k0_pay1 x0 (ix2 p k) = x0 (ix3 0 p k) := by
  unfold k0_pay1
  refine (truncf_apply (ψ := .bf16) (shapeCast S512x1024 x0 shapeCasts_S1x512x1024_S512x1024) bitsLt_bf16_f32 (ix2 p k)).trans ?_
  refine shapeCast_apply x0 _ (ix2 p k) (ix3 0 p k) ?_
  rw [Shape.rowMajor_val_three, Shape.rowMajor_val_two]
  show ((0 : Nat) * 512 + p.val) * 1024 + k.val = p.val * 1024 + k.val
  omega

/-- A weight block with its unit axis dropped, entry (k, e). -/
theorem rhs_apply (w : Vec Ideal S1x1024x1024 .bf16) (k : Fin 1024) (e : Fin 1024) :
    (shapeCast S1024x1024 w shapeCasts_S1x1024x1024_S1024x1024 : FVec Ideal S1024x1024 .bf16) (ix2 k e) = w (ix3 0 k e) := by
  refine shapeCast_apply w _ (ix2 k e) (ix3 0 k e) ?_
  rw [Shape.rowMajor_val_three, Shape.rowMajor_val_two]
  show ((0 : Nat) * 1024 + k.val) * 1024 + e.val = k.val * 1024 + e.val
  omega

/-- One entry of the block stored to the first output: row p of the input block against column e of the weight block. -/
theorem pay_apply_q (x0 : Vec Ideal S1x512x1024 .f32) (w : Vec Ideal S1x1024x1024 .bf16) (u : Fin 1) (p : Fin 512) (e : Fin 1024) :
    k0_pay2 x0 w (ix3 u p e) = ∑ k : Fin 1024, x0 (ix3 0 p k) * w (ix3 0 k e) := by
  unfold k0_pay2
  refine (shapeCast_apply _ shapeCasts_S512x1024_S1x512x1024 (ix3 u p e) (ix2 p e) ?_).trans ?_
  · rw [Shape.rowMajor_val_three, Shape.rowMajor_val_two]
    show p.val * 1024 + e.val = (u.val * 512 + p.val) * 1024 + e.val
    have := u.isLt
    omega
  refine (truncf_apply (ψ := .bf16) _ bitsLt_bf16_f32 (ix2 p e)).trans ?_
  refine (Cert.LibPlainDot.matmul_plain_zero_apply none (k0_pay1 x0)
    (shapeCast S1024x1024 w shapeCasts_S1x1024x1024_S1024x1024 : FVec Ideal S1024x1024 .bf16) p e).trans ?_
  exact Finset.sum_congr rfl fun k _ => congrArg₂ (· * ·) (lhs_apply x0 p k) (rhs_apply w k e)

/-- One entry of the block stored to the second output: row p of the input block against column e of the weight block. -/
theorem pay_apply_k (x0 : Vec Ideal S1x512x1024 .f32) (w : Vec Ideal S1x1024x1024 .bf16) (u : Fin 1) (p : Fin 512) (e : Fin 1024) :
    k0_pay3 x0 w (ix3 u p e) = ∑ k : Fin 1024, x0 (ix3 0 p k) * w (ix3 0 k e) := by
  unfold k0_pay3
  refine (shapeCast_apply _ shapeCasts_S512x1024_S1x512x1024 (ix3 u p e) (ix2 p e) ?_).trans ?_
  · rw [Shape.rowMajor_val_three, Shape.rowMajor_val_two]
    show p.val * 1024 + e.val = (u.val * 512 + p.val) * 1024 + e.val
    have := u.isLt
    omega
  refine (truncf_apply (ψ := .bf16) _ bitsLt_bf16_f32 (ix2 p e)).trans ?_
  refine (Cert.LibPlainDot.matmul_plain_zero_apply none (k0_pay1 x0)
    (shapeCast S1024x1024 w shapeCasts_S1x1024x1024_S1024x1024 : FVec Ideal S1024x1024 .bf16) p e).trans ?_
  exact Finset.sum_congr rfl fun k _ => congrArg₂ (· * ·) (lhs_apply x0 p k) (rhs_apply w k e)

/-- One entry of the block stored to the third output: row p of the input block against column e of the weight block. -/
theorem pay_apply_v (x0 : Vec Ideal S1x512x1024 .f32) (w : Vec Ideal S1x1024x1024 .bf16) (u : Fin 1) (p : Fin 512) (e : Fin 1024) :
    k0_pay4 x0 w (ix3 u p e) = ∑ k : Fin 1024, x0 (ix3 0 p k) * w (ix3 0 k e) := by
  unfold k0_pay4
  refine (shapeCast_apply _ shapeCasts_S512x1024_S1x512x1024 (ix3 u p e) (ix2 p e) ?_).trans ?_
  · rw [Shape.rowMajor_val_three, Shape.rowMajor_val_two]
    show p.val * 1024 + e.val = (u.val * 512 + p.val) * 1024 + e.val
    have := u.isLt
    omega
  refine (truncf_apply (ψ := .bf16) _ bitsLt_bf16_f32 (ix2 p e)).trans ?_
  refine (Cert.LibPlainDot.matmul_plain_zero_apply none (k0_pay1 x0)
    (shapeCast S1024x1024 w shapeCasts_S1x1024x1024_S1024x1024 : FVec Ideal S1024x1024 .bf16) p e).trans ?_
  exact Finset.sum_congr rfl fun k _ => congrArg₂ (· * ·) (lhs_apply x0 p k) (rhs_apply w k e)

/-- The zero offsets of a whole-block access, as a constant function. -/
theorem hz3 : (![0, 0, 0] : Fin 3 → Nat) = fun _ => 0 := funext fun a => by fin_cases a <;> rfl

/-- One entry of a stored block as an entry of the per-sample product, given where the two loaded blocks sit in their arrays. -/
theorem block_entry_q (X : S4x2048x1024.Idx → EReal) (W : S4x1024x1024.Idx → EReal)
    (x0 : Vec Ideal S1x512x1024 .f32) (w : Vec Ideal S1x1024x1024 .bf16)
    (i : S4x2048x1024.Idx) (y : S1x512x1024.Idx)
    (hx : ∀ k : Fin 1024, x0 (ix3 0 (y 1) k) = X (ix3 (i 0) (i 1) k))
    (hw : ∀ k : Fin 1024, w (ix3 0 k (y 2)) = W (ix3 (i 0) k (i 2))) :
    k0_pay2 x0 w y = Cert.Attn.proj X W (i 0) (i 1) (i 2) :=
  (congrArg (k0_pay2 x0 w) (eq_ix3 y)).trans
    ((pay_apply_q x0 w (y 0) (y 1) (y 2)).trans
      (Finset.sum_congr rfl fun k _ => congrArg₂ (· * ·) (hx k) (hw k)))

/-- One entry of a stored block as an entry of the per-sample product, given where the two loaded blocks sit in their arrays. -/
theorem block_entry_k (X : S4x2048x1024.Idx → EReal) (W : S4x1024x1024.Idx → EReal)
    (x0 : Vec Ideal S1x512x1024 .f32) (w : Vec Ideal S1x1024x1024 .bf16)
    (i : S4x2048x1024.Idx) (y : S1x512x1024.Idx)
    (hx : ∀ k : Fin 1024, x0 (ix3 0 (y 1) k) = X (ix3 (i 0) (i 1) k))
    (hw : ∀ k : Fin 1024, w (ix3 0 k (y 2)) = W (ix3 (i 0) k (i 2))) :
    k0_pay3 x0 w y = Cert.Attn.proj X W (i 0) (i 1) (i 2) :=
  (congrArg (k0_pay3 x0 w) (eq_ix3 y)).trans
    ((pay_apply_k x0 w (y 0) (y 1) (y 2)).trans
      (Finset.sum_congr rfl fun k _ => congrArg₂ (· * ·) (hx k) (hw k)))

/-- One entry of a stored block as an entry of the per-sample product, given where the two loaded blocks sit in their arrays. -/
theorem block_entry_v (X : S4x2048x1024.Idx → EReal) (W : S4x1024x1024.Idx → EReal)
    (x0 : Vec Ideal S1x512x1024 .f32) (w : Vec Ideal S1x1024x1024 .bf16)
    (i : S4x2048x1024.Idx) (y : S1x512x1024.Idx)
    (hx : ∀ k : Fin 1024, x0 (ix3 0 (y 1) k) = X (ix3 (i 0) (i 1) k))
    (hw : ∀ k : Fin 1024, w (ix3 0 k (y 2)) = W (ix3 (i 0) k (i 2))) :
    k0_pay4 x0 w y = Cert.Attn.proj X W (i 0) (i 1) (i 2) :=
  (congrArg (k0_pay4 x0 w) (eq_ix3 y)).trans
    ((pay_apply_v x0 w (y 0) (y 1) (y 2)).trans
      (Finset.sum_congr rfl fun k _ => congrArg₂ (· * ·) (hx k) (hw k)))

variable (V : (c : Dev nD) → (b : Ref sig .tc) → Buf (Elt Ideal) ((c : Thread nD τ).loc b))

/-! ## The first output: queries -/

/-- The kernel's index maps over the 16 grid points: the input block and the stored block sit at the same sample and
    row block, the weight block at the same sample; every block starts at column 0 and the weight block at row 0. -/
theorem idx_facts_q : ∀ t : Fin cfg0.N, win0_0.index t (0 : Fin 3) = win0_4.index t (0 : Fin 3)
    ∧ win0_0.index t (1 : Fin 3) = win0_4.index t (1 : Fin 3)
    ∧ win0_0.index t (2 : Fin 3) = 0
    ∧ win0_1.index t (0 : Fin 3) = win0_4.index t (0 : Fin 3)
    ∧ win0_1.index t (1 : Fin 3) = 0
    ∧ win0_1.index t (2 : Fin 3) = 0
    ∧ win0_4.index t (2 : Fin 3) = 0 :=
  (by decide +kernel : ∀ t : Fin grid0.N, _)

/-- Every sample and every block of 512 rows is some grid point's. -/
theorem idx_onto_q : ∀ (q0 : Fin 4) (q1 : Fin 4), ∃ t : Fin cfg0.N, win0_4.index t = ![q0.val, q1.val, 0] :=
  (by decide +kernel : ∀ (q0 : Fin 4) (q1 : Fin 4), ∃ t : Fin grid0.N, win0_4.index t = ![q0.val, q1.val, 0])

/-- What a grid point writes back to the first output is its block of the per-sample product of the input with the
    first weight array: the block's sample and rows are the input block's, the weight block is that sample's whole matrix. -/
theorem flushed_q (c : Dev nD) (t : Fin cfg0.N) :
    (dat0 (F := Ideal) V c).flushed 4 t
      = ((cfg0.win 4).blk t).view.read (Elt Ideal) (fun i => Cert.Attn.proj (V c main_arg0) (V c main_v0) (i 0) (i 1) (i 2)) := by
  show (cfg0.win 4).cut (grid0.coords t) ((dat0 V c).after 4 t) = _
  rw [after0_4]
  unfold out0_4
  rw [View.canon_unit_zero hz3]
  simp only [View.ld_unit_zero (S := S1x512x1024) hz3, View.ld_unit_zero (S := S1x1024x1024) hz3]
  obtain ⟨e0, e1, e2, e3, e4, e5, e6⟩ := idx_facts_q t
  funext j
  refine block_entry_q (V c main_arg0) (V c main_v0) (iblk0 V c 0 t) (iblk0 V c 1 t)
    (((cfg0.win 4).blk t).view.emb j) j ?_ ?_
  · intro k
    show V c main_arg0 (((cfg0.win 0).blk t).view.emb (ix3 0 (j 1) k)) = _
    refine congrArg (V c main_arg0) (funext fun a => Fin.ext ?_)
    match a with
    | ⟨0, _⟩ => show win0_0.index t (0 : Fin 3) * 1 + 1 * 0 = win0_4.index t (0 : Fin 3) * 1 + 1 * (j 0).val; have hj : (j 0).val < 1 := (j 0).isLt; omega
    | ⟨1, _⟩ => show win0_0.index t (1 : Fin 3) * 512 + 1 * (j 1).val = win0_4.index t (1 : Fin 3) * 512 + 1 * (j 1).val; omega
    | ⟨2, _⟩ => show win0_0.index t (2 : Fin 3) * 1024 + 1 * k.val = k.val; omega
  · intro k
    show V c main_v0 (((cfg0.win 1).blk t).view.emb (ix3 0 k (j 2))) = _
    refine congrArg (V c main_v0) (funext fun a => Fin.ext ?_)
    match a with
    | ⟨0, _⟩ => show win0_1.index t (0 : Fin 3) * 1 + 1 * 0 = win0_4.index t (0 : Fin 3) * 1 + 1 * (j 0).val; have hj : (j 0).val < 1 := (j 0).isLt; omega
    | ⟨1, _⟩ => show win0_1.index t (1 : Fin 3) * 1024 + 1 * k.val = k.val; omega
    | ⟨2, _⟩ => show win0_1.index t (2 : Fin 3) * 1024 + 1 * (j 2).val = win0_4.index t (2 : Fin 3) * 1024 + 1 * (j 2).val; omega

/-- An index of the first output is in a grid point's block iff each coordinate is in the block's range on its axis. -/
theorem mem_blk_q (t : Fin cfg0.N) (i : S4x2048x1024.Idx) :
    i ∈ ((cfg0.win 4).blk t).view.set ↔ ∀ a : Fin 3, win0_4.index t a * S1x512x1024.size a ≤ (i a).val
      ∧ (i a).val < win0_4.index t a * S1x512x1024.size a + S1x512x1024.size a := by
  show i ∈ ((View.whole main_v4_0).slice (win0_4.rect t)).set ↔ _
  rw [View.set_slice_whole, Rect.mem_set_unit]
  exact Iff.rfl

/-- The blocks tile the first output: entry (b, n, e) is in the block of the point at sample b and row block n / 512. -/
theorem cover_q (i : S4x2048x1024.Idx) :
    ∃ t : Fin cfg0.N, (cfg0.win 4).flush t = true ∧ i ∈ ((cfg0.win 4).blk t).view.set := by
  have hi0 : (i 0).val < 4 := (i 0).isLt
  have hi1 : (i 1).val < 2048 := (i 1).isLt
  have hi2 : (i 2).val < 1024 := (i 2).isLt
  obtain ⟨t, ht⟩ := idx_onto_q ⟨(i 0).val, hi0⟩ ⟨(i 1).val / 512, by omega⟩
  have q0 : win0_4.index t (0 : Fin 3) = (i 0).val := congrFun ht 0
  have q1 : win0_4.index t (1 : Fin 3) = (i 1).val / 512 := congrFun ht 1
  have q2 : win0_4.index t (2 : Fin 3) = 0 := congrFun ht 2
  refine ⟨t, flush0_4 t, ?_⟩
  rw [mem_blk_q]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 1024 ≤ (i 2).val ∧ (i 2).val < win0_4.index t (2 : Fin 3) * 1024 + 1024; omega

/-- After the region the first output array is, entry by entry, the per-sample product of the input array with the
    first weight array as the region found them. -/
theorem arr_q (c : Dev nD) :
    (dat0 (F := Ideal) V c).arrAt 4 cfg0.N
      = fun i => Cert.Attn.proj (V c main_arg0) (V c main_v0) (i 0) (i 1) (i 2) :=
  (dat0 (F := Ideal) V c).arrAt_eq_of_cover 4
    (fun i => Cert.Attn.proj (V c main_arg0) (V c main_v0) (i 0) (i 1) (i 2))
    (fun t _ => flushed_q V c t) cover_q

/-! ## The second output: keys -/

/-- The kernel's index maps over the 16 grid points: the input block and the stored block sit at the same sample and
    row block, the weight block at the same sample; every block starts at column 0 and the weight block at row 0. -/
theorem idx_facts_k : ∀ t : Fin cfg0.N, win0_0.index t (0 : Fin 3) = win0_5.index t (0 : Fin 3)
    ∧ win0_0.index t (1 : Fin 3) = win0_5.index t (1 : Fin 3)
    ∧ win0_0.index t (2 : Fin 3) = 0
    ∧ win0_2.index t (0 : Fin 3) = win0_5.index t (0 : Fin 3)
    ∧ win0_2.index t (1 : Fin 3) = 0
    ∧ win0_2.index t (2 : Fin 3) = 0
    ∧ win0_5.index t (2 : Fin 3) = 0 :=
  (by decide +kernel : ∀ t : Fin grid0.N, _)

/-- Every sample and every block of 512 rows is some grid point's. -/
theorem idx_onto_k : ∀ (q0 : Fin 4) (q1 : Fin 4), ∃ t : Fin cfg0.N, win0_5.index t = ![q0.val, q1.val, 0] :=
  (by decide +kernel : ∀ (q0 : Fin 4) (q1 : Fin 4), ∃ t : Fin grid0.N, win0_5.index t = ![q0.val, q1.val, 0])

/-- What a grid point writes back to the second output is its block of the per-sample product of the input with the
    second weight array: the block's sample and rows are the input block's, the weight block is that sample's whole matrix. -/
theorem flushed_k (c : Dev nD) (t : Fin cfg0.N) :
    (dat0 (F := Ideal) V c).flushed 5 t
      = ((cfg0.win 5).blk t).view.read (Elt Ideal) (fun i => Cert.Attn.proj (V c main_arg0) (V c main_v1) (i 0) (i 1) (i 2)) := by
  show (cfg0.win 5).cut (grid0.coords t) ((dat0 V c).after 5 t) = _
  rw [after0_5]
  unfold out0_5
  rw [View.canon_unit_zero hz3]
  simp only [View.ld_unit_zero (S := S1x512x1024) hz3, View.ld_unit_zero (S := S1x1024x1024) hz3]
  obtain ⟨e0, e1, e2, e3, e4, e5, e6⟩ := idx_facts_k t
  funext j
  refine block_entry_k (V c main_arg0) (V c main_v1) (iblk0 V c 0 t) (iblk0 V c 2 t)
    (((cfg0.win 5).blk t).view.emb j) j ?_ ?_
  · intro k
    show V c main_arg0 (((cfg0.win 0).blk t).view.emb (ix3 0 (j 1) k)) = _
    refine congrArg (V c main_arg0) (funext fun a => Fin.ext ?_)
    match a with
    | ⟨0, _⟩ => show win0_0.index t (0 : Fin 3) * 1 + 1 * 0 = win0_5.index t (0 : Fin 3) * 1 + 1 * (j 0).val; have hj : (j 0).val < 1 := (j 0).isLt; omega
    | ⟨1, _⟩ => show win0_0.index t (1 : Fin 3) * 512 + 1 * (j 1).val = win0_5.index t (1 : Fin 3) * 512 + 1 * (j 1).val; omega
    | ⟨2, _⟩ => show win0_0.index t (2 : Fin 3) * 1024 + 1 * k.val = k.val; omega
  · intro k
    show V c main_v1 (((cfg0.win 2).blk t).view.emb (ix3 0 k (j 2))) = _
    refine congrArg (V c main_v1) (funext fun a => Fin.ext ?_)
    match a with
    | ⟨0, _⟩ => show win0_2.index t (0 : Fin 3) * 1 + 1 * 0 = win0_5.index t (0 : Fin 3) * 1 + 1 * (j 0).val; have hj : (j 0).val < 1 := (j 0).isLt; omega
    | ⟨1, _⟩ => show win0_2.index t (1 : Fin 3) * 1024 + 1 * k.val = k.val; omega
    | ⟨2, _⟩ => show win0_2.index t (2 : Fin 3) * 1024 + 1 * (j 2).val = win0_5.index t (2 : Fin 3) * 1024 + 1 * (j 2).val; omega

/-- An index of the second output is in a grid point's block iff each coordinate is in the block's range on its axis. -/
theorem mem_blk_k (t : Fin cfg0.N) (i : S4x2048x1024.Idx) :
    i ∈ ((cfg0.win 5).blk t).view.set ↔ ∀ a : Fin 3, win0_5.index t a * S1x512x1024.size a ≤ (i a).val
      ∧ (i a).val < win0_5.index t a * S1x512x1024.size a + S1x512x1024.size a := by
  show i ∈ ((View.whole main_v4_1).slice (win0_5.rect t)).set ↔ _
  rw [View.set_slice_whole, Rect.mem_set_unit]
  exact Iff.rfl

/-- The blocks tile the second output: entry (b, n, e) is in the block of the point at sample b and row block n / 512. -/
theorem cover_k (i : S4x2048x1024.Idx) :
    ∃ t : Fin cfg0.N, (cfg0.win 5).flush t = true ∧ i ∈ ((cfg0.win 5).blk t).view.set := by
  have hi0 : (i 0).val < 4 := (i 0).isLt
  have hi1 : (i 1).val < 2048 := (i 1).isLt
  have hi2 : (i 2).val < 1024 := (i 2).isLt
  obtain ⟨t, ht⟩ := idx_onto_k ⟨(i 0).val, hi0⟩ ⟨(i 1).val / 512, by omega⟩
  have q0 : win0_5.index t (0 : Fin 3) = (i 0).val := congrFun ht 0
  have q1 : win0_5.index t (1 : Fin 3) = (i 1).val / 512 := congrFun ht 1
  have q2 : win0_5.index t (2 : Fin 3) = 0 := congrFun ht 2
  refine ⟨t, flush0_5 t, ?_⟩
  rw [mem_blk_k]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 512 ≤ (i 1).val ∧ (i 1).val < win0_5.index t (1 : Fin 3) * 512 + 512; omega
  | ⟨2, _⟩ => show win0_5.index t (2 : Fin 3) * 1024 ≤ (i 2).val ∧ (i 2).val < win0_5.index t (2 : Fin 3) * 1024 + 1024; omega

/-- After the region the second output array is, entry by entry, the per-sample product of the input array with the
    second weight array as the region found them. -/
theorem arr_k (c : Dev nD) :
    (dat0 (F := Ideal) V c).arrAt 5 cfg0.N
      = fun i => Cert.Attn.proj (V c main_arg0) (V c main_v1) (i 0) (i 1) (i 2) :=
  (dat0 (F := Ideal) V c).arrAt_eq_of_cover 5
    (fun i => Cert.Attn.proj (V c main_arg0) (V c main_v1) (i 0) (i 1) (i 2))
    (fun t _ => flushed_k V c t) cover_k

/-! ## The third output: values -/

/-- The kernel's index maps over the 16 grid points: the input block and the stored block sit at the same sample and
    row block, the weight block at the same sample; every block starts at column 0 and the weight block at row 0. -/
theorem idx_facts_v : ∀ t : Fin cfg0.N, win0_0.index t (0 : Fin 3) = win0_6.index t (0 : Fin 3)
    ∧ win0_0.index t (1 : Fin 3) = win0_6.index t (1 : Fin 3)
    ∧ win0_0.index t (2 : Fin 3) = 0
    ∧ win0_3.index t (0 : Fin 3) = win0_6.index t (0 : Fin 3)
    ∧ win0_3.index t (1 : Fin 3) = 0
    ∧ win0_3.index t (2 : Fin 3) = 0
    ∧ win0_6.index t (2 : Fin 3) = 0 :=
  (by decide +kernel : ∀ t : Fin grid0.N, _)

/-- Every sample and every block of 512 rows is some grid point's. -/
theorem idx_onto_v : ∀ (q0 : Fin 4) (q1 : Fin 4), ∃ t : Fin cfg0.N, win0_6.index t = ![q0.val, q1.val, 0] :=
  (by decide +kernel : ∀ (q0 : Fin 4) (q1 : Fin 4), ∃ t : Fin grid0.N, win0_6.index t = ![q0.val, q1.val, 0])

/-- What a grid point writes back to the third output is its block of the per-sample product of the input with the
    third weight array: the block's sample and rows are the input block's, the weight block is that sample's whole matrix. -/
theorem flushed_v (c : Dev nD) (t : Fin cfg0.N) :
    (dat0 (F := Ideal) V c).flushed 6 t
      = ((cfg0.win 6).blk t).view.read (Elt Ideal) (fun i => Cert.Attn.proj (V c main_arg0) (V c main_v2) (i 0) (i 1) (i 2)) := by
  show (cfg0.win 6).cut (grid0.coords t) ((dat0 V c).after 6 t) = _
  rw [after0_6]
  unfold out0_6
  rw [View.canon_unit_zero hz3]
  simp only [View.ld_unit_zero (S := S1x512x1024) hz3, View.ld_unit_zero (S := S1x1024x1024) hz3]
  obtain ⟨e0, e1, e2, e3, e4, e5, e6⟩ := idx_facts_v t
  funext j
  refine block_entry_v (V c main_arg0) (V c main_v2) (iblk0 V c 0 t) (iblk0 V c 3 t)
    (((cfg0.win 6).blk t).view.emb j) j ?_ ?_
  · intro k
    show V c main_arg0 (((cfg0.win 0).blk t).view.emb (ix3 0 (j 1) k)) = _
    refine congrArg (V c main_arg0) (funext fun a => Fin.ext ?_)
    match a with
    | ⟨0, _⟩ => show win0_0.index t (0 : Fin 3) * 1 + 1 * 0 = win0_6.index t (0 : Fin 3) * 1 + 1 * (j 0).val; have hj : (j 0).val < 1 := (j 0).isLt; omega
    | ⟨1, _⟩ => show win0_0.index t (1 : Fin 3) * 512 + 1 * (j 1).val = win0_6.index t (1 : Fin 3) * 512 + 1 * (j 1).val; omega
    | ⟨2, _⟩ => show win0_0.index t (2 : Fin 3) * 1024 + 1 * k.val = k.val; omega
  · intro k
    show V c main_v2 (((cfg0.win 3).blk t).view.emb (ix3 0 k (j 2))) = _
    refine congrArg (V c main_v2) (funext fun a => Fin.ext ?_)
    match a with
    | ⟨0, _⟩ => show win0_3.index t (0 : Fin 3) * 1 + 1 * 0 = win0_6.index t (0 : Fin 3) * 1 + 1 * (j 0).val; have hj : (j 0).val < 1 := (j 0).isLt; omega
    | ⟨1, _⟩ => show win0_3.index t (1 : Fin 3) * 1024 + 1 * k.val = k.val; omega
    | ⟨2, _⟩ => show win0_3.index t (2 : Fin 3) * 1024 + 1 * (j 2).val = win0_6.index t (2 : Fin 3) * 1024 + 1 * (j 2).val; omega

/-- An index of the third output is in a grid point's block iff each coordinate is in the block's range on its axis. -/
theorem mem_blk_v (t : Fin cfg0.N) (i : S4x2048x1024.Idx) :
    i ∈ ((cfg0.win 6).blk t).view.set ↔ ∀ a : Fin 3, win0_6.index t a * S1x512x1024.size a ≤ (i a).val
      ∧ (i a).val < win0_6.index t a * S1x512x1024.size a + S1x512x1024.size a := by
  show i ∈ ((View.whole main_v4_2).slice (win0_6.rect t)).set ↔ _
  rw [View.set_slice_whole, Rect.mem_set_unit]
  exact Iff.rfl

/-- The blocks tile the third output: entry (b, n, e) is in the block of the point at sample b and row block n / 512. -/
theorem cover_v (i : S4x2048x1024.Idx) :
    ∃ t : Fin cfg0.N, (cfg0.win 6).flush t = true ∧ i ∈ ((cfg0.win 6).blk t).view.set := by
  have hi0 : (i 0).val < 4 := (i 0).isLt
  have hi1 : (i 1).val < 2048 := (i 1).isLt
  have hi2 : (i 2).val < 1024 := (i 2).isLt
  obtain ⟨t, ht⟩ := idx_onto_v ⟨(i 0).val, hi0⟩ ⟨(i 1).val / 512, by omega⟩
  have q0 : win0_6.index t (0 : Fin 3) = (i 0).val := congrFun ht 0
  have q1 : win0_6.index t (1 : Fin 3) = (i 1).val / 512 := congrFun ht 1
  have q2 : win0_6.index t (2 : Fin 3) = 0 := congrFun ht 2
  refine ⟨t, flush0_6 t, ?_⟩
  rw [mem_blk_v]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 512 ≤ (i 1).val ∧ (i 1).val < win0_6.index t (1 : Fin 3) * 512 + 512; omega
  | ⟨2, _⟩ => show win0_6.index t (2 : Fin 3) * 1024 ≤ (i 2).val ∧ (i 2).val < win0_6.index t (2 : Fin 3) * 1024 + 1024; omega

/-- After the region the third output array is, entry by entry, the per-sample product of the input array with the
    third weight array as the region found them. -/
theorem arr_v (c : Dev nD) :
    (dat0 (F := Ideal) V c).arrAt 6 cfg0.N
      = fun i => Cert.Attn.proj (V c main_arg0) (V c main_v2) (i 0) (i 1) (i 2) :=
  (dat0 (F := Ideal) V c).arrAt_eq_of_cover 6
    (fun i => Cert.Attn.proj (V c main_arg0) (V c main_v2) (i 0) (i 1) (i 2))
    (fun t _ => flushed_v V c t) cover_v

end Cert.KSide.R0

end
-- ==== Proof.LibDotLastAxis.lean ====
/-
  A matrix product contracted over the LAST axis of both operands, read at an entry, on the extended reals.

  For an `m × k` matrix `A` and an `n × k` matrix `B` (the right operand given with the contracted axis last, as a weight
  matrix stored row by row), the product with dimension numbers "contract axis 1 with axis 1" has, at `(p, j)`, the value
  `∑ c, A (p, c) · B (j, c)`. On the extended reals a kernel's matrix unit accumulating into a zero tile and the host's
  product are this same sum: there is no rounding and no order of accumulation to tell them apart.
-/
import Idealize.ShloMosaic.PureOps.Ideal
import Idealize.ShloMosaic.PureOps.Ideal.Laws
import Idealize.ShloMosaic.Lib.ValueIdx

noncomputable section

namespace Cert.LibDotLastAxis

open Idealize.ShloMosaic Idealize.ShloMosaic.ValueIdx

/-- The matrix unit's product into a zero tile, both operands contracted on their last axis, at `(p, j)`. -/
theorem matmulT_zero_apply {m k n : ℕ} {φ₁ φ₂ : FTy}
    (w : DotDims.WF ⟨2, ![m, k]⟩ ⟨2, ![n, k]⟩ ⟨2, ![m, n]⟩ [1] [1] [0] [0] [] []) (prec : Option ContractPrecision)
    (A : FVec Ideal ⟨2, ![m, k]⟩ φ₁) (B : FVec Ideal ⟨2, ![n, k]⟩ φ₂) (p : Fin m) (j : Fin n) :
    FloatOps.matmul (⟨[1], [1], [0], [0], [], [], w⟩ : DotDims ⟨2, ![m, k]⟩ ⟨2, ![n, k]⟩ ⟨2, ![m, n]⟩) prec A B
        (constant (F := Ideal) ⟨2, ![m, n]⟩ .f32 0x00000000#32) (ix2 p j)
      = ∑ c : Fin k, A (ix2 p c) * B (ix2 j c) := by
  rw [Ideal.matmul_constant_zero_apply,
    ← Equiv.sum_comp (contrEquiv1 (⟨[1], [1], [0], [0], [], [], w⟩ : DotDims ⟨2, ![m, k]⟩ ⟨2, ![n, k]⟩ ⟨2, ![m, n]⟩) k rfl rfl).symm]
  refine Finset.sum_congr rfl fun c _ => ?_
  have c2 := contrEquiv1_symm_val (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 p j)
      ((contrEquiv1 _ k rfl rfl).symm c) = ix2 p c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 p j)
      ((contrEquiv1 _ k rfl rfl).symm c) = ix2 j c := by
    funext ax; apply Fin.ext
    match ax with
    | ⟨0, _⟩ => simp [DotDims.rhsIdx]; rfl
    | ⟨1, _⟩ => simp [DotDims.rhsIdx]; exact c2
  rw [l2, r2]

/-- The host's product with the same dimension numbers, at `(p, j)`. -/
theorem dotGeneralT_apply {m k n : ℕ} {φ₁ φ₂ : FTy}
    (w : DotDims.WF ⟨2, ![m, k]⟩ ⟨2, ![n, k]⟩ ⟨2, ![m, n]⟩ [1] [1] [0] [0] [] []) (prec : Option ContractPrecision)
    (A : FVec Ideal ⟨2, ![m, k]⟩ φ₁) (B : FVec Ideal ⟨2, ![n, k]⟩ φ₂) (p : Fin m) (j : Fin n) :
    Host.dotGeneral (F := Ideal) (⟨[1], [1], [0], [0], [], [], w⟩ : DotDims ⟨2, ![m, k]⟩ ⟨2, ![n, k]⟩ ⟨2, ![m, n]⟩) prec A B (ix2 p j)
      = ∑ c : Fin k, A (ix2 p c) * B (ix2 j c) :=
  (Ideal.dotGeneral_apply _ prec .single A B (ix2 p j)).trans
    ((Ideal.matmul_constant_zero_apply _ none A B (ix2 p j)).symm.trans (matmulT_zero_apply w none A B p j))

end Cert.LibDotLastAxis

end
-- ==== Proof.LibKeepdims.lean ====
/-
  Keep-dimension layout operations and row reductions of a matrix, read at an index given by coordinates.
  A row statistic of an [a, b] matrix (a maximum or a sum along the columns) is a vector of length a; kept as a
  column it is cast to [a, 1] and broadcast back over the b columns. Read at (p, c) each step is the identity on
  the row coordinate: the cast reads the vector at p, the broadcast reads the column at (p, 0), and the reductions
  are the fold of max from the start word, and the sum, over the b entries of row p.
-/
import Idealize.ShloMosaic.Lib.ValueIdx
import Idealize.ShloMosaic.Lib.ValueLayout
import Idealize.ShloMosaic.PureOps.Ideal.Laws

namespace Idealize.ShloMosaic.ValueIdx

open Idealize.ShloMosaic

variable {α : Type}

/-- A vector of length `a` cast to the column shape `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` columns reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a one-axis reduction along the columns inserts: row `p`, column `k`. -/
theorem lift_cols {a b : ℕ} (h : (⟨2, ![a, b]⟩ : Shape).Reduces [1] ⟨1, ![a]⟩) (p : Fin a) (k : Fin b) :
    h.lift (ix1 p) k = ix2 p k :=
  funext fun ax => Fin.ext (by match ax with | ⟨0, _⟩ => rfl | ⟨1, _⟩ => rfl)

/-- The maximum along the columns of an `[a, b]` matrix at row `p`: the fold of max, from the start word, over the
    row's entries. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) := by
  refine (Ideal.multiReduction_maximumf_single src acc h hφ hacc (ix1 p)).trans ?_
  have e : (src ∘ h.lift (ix1 p) : Fin b → EReal) = fun k => src (ix2 p k) :=
    funext fun k => congrArg src (lift_cols h p k)
  exact congrArg (fun f : Fin b → EReal => (Finset.univ : Finset (Fin b)).fold max (Ideal.ofBits φ acc) f) e

/-- The sum along the columns of an `[a, b]` matrix at row `p`: the sum of the row's entries. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  exact Finset.sum_congr rfl fun k _ => congrArg src (lift_cols h p k)

end Idealize.ShloMosaic.ValueIdx
-- ==== Proof.Head.lean ====
/-
  One attention head of the second kernel, and a pair of heads side by side.

  A head takes a tile of 256 query rows, and all 2048 key rows and value rows, each 64 columns wide. Its scores are the
  products of query rows with key rows over the 64 columns, times one eighth; each row of 2048 scores is made into weights
  by subtracting the row's maximum, exponentiating, and dividing by the row's sum; the output row is the weighted sum of
  the value rows. On the extended reals this is `Cert.Attn.attend` entry by entry. The kernel computes sixteen heads
  one after another and writes them two at a time, side by side, as tiles of 128 columns.
-/
import proofs.«180985_j31430570672467_2_alg».proof.Proof.Gen.KernelIdeal.Skeleton
import proofs.«180985_j31430570672467_2_alg».proof.Proof.Spec
import proofs.«180985_j31430570672467_2_alg».proof.Proof.LibPlainDot
import proofs.«180985_j31430570672467_2_alg».proof.Proof.LibDotLastAxis
import proofs.«180985_j31430570672467_2_alg».proof.Proof.LibKeepdims
import Idealize.ShloMosaic.Lib.ValueLayout
import Idealize.ShloMosaic.Lib.Pipeline.Value
import Idealize.ShloMosaic.PureOps.Ideal.Laws

noncomputable section

namespace Cert.KSide

open Idealize.ShloMosaic Idealize.ShloMosaic.ValueIdx Idealize.SL.Sem Cert.KernelIdeal Cert.KernelIdeal.Gen

variable {F : FTy → Type} [FloatOps F]

/-! ## The head's arithmetic, as the kernel spells it -/

/-- Scaled scores: query tile times key rows over the 64 columns, times one eighth. -/
def scores (q : FVec F S256x64 .bf16) (k : FVec F S2048x64 .bf16) : FVec F S256x2048 .f32 :=
  mulf (matmul dot_S256x64_S2048x64_S256x2048_1_1_0_0_n_n none q k (constant S256x2048 .f32 0x00000000#32))
    (broadcast S256x2048 (Scalar.ofBits .f32 0x3E000000#32))

/-- Unnormalized weights: the exponential of each score less its row's maximum. -/
def weights (s : FVec F S256x2048 .f32) : FVec F S256x2048 .f32 :=
  exp (subf s (broadcastTo S256x2048 (shapeCast S256x1
    (multiReduction .maximumf [1] S256 s 0xFF800000#32 reduces_S256x2048_S256 (.inl rfl) rfl) shapeCasts_S256_S256x1)
    broadcasts_S256x1_S256x2048))

/-- Each weight divided by its row's sum. -/
def normalized (e : FVec F S256x2048 .f32) : FVec F S256x2048 .f32 :=
  divf e (broadcastTo S256x2048 (shapeCast S256x1
    (multiReduction .add [1] S256 e 0x00000000#32 reduces_S256x2048_S256 (.inl rfl) rfl) shapeCasts_S256_S256x1)
    broadcasts_S256x1_S256x2048)

/-- The head's output tile: normalized weights times the value rows. -/
def headCore (q : FVec F S256x64 .bf16) (k v : FVec F S2048x64 .bf16) : FVec F S256x64 .f32 :=
  matmul dot_S256x2048_S2048x64_S256x64_1_0_0_1_n_n none
    (truncf .bf16 (normalized (weights (scores q k))) bitsLt_bf16_f32) v (constant S256x64 .f32 0x00000000#32)

/-- The same from operands that still carry a leading unit axis, as they are loaded. -/
def head3 (q : Vec F S1x256x64 .bf16) (k v : Vec F S1x2048x64 .bf16) : FVec F S256x64 .f32 :=
  headCore (shapeCast S256x64 q shapeCasts_S1x256x64_S256x64) (shapeCast S2048x64 k shapeCasts_S1x2048x64_S2048x64)
    (shapeCast S2048x64 v shapeCasts_S1x2048x64_S2048x64)

/-- Two heads side by side: a tile of 128 columns. -/
def pairTile (q0 : Vec F S1x256x64 .bf16) (k0 v0 : Vec F S1x2048x64 .bf16)
    (q1 : Vec F S1x256x64 .bf16) (k1 v1 : Vec F S1x2048x64 .bf16) : FVec F S256x128 .f32 :=
  shapeCast S256x128 (concatenate S256x128 1 [⟨S256x64, head3 q0 k0 v0⟩, ⟨S256x64, head3 q1 k1 v1⟩]
    concatenates_S256x64_S256x64_S256x128_d1) shapeCasts_S256x128_S256x128

/-! ## Read at an entry, on the extended reals -/

theorem scores_apply (q : FVec Ideal S256x64 .bf16) (k : FVec Ideal S2048x64 .bf16) (p : Fin 256) (m : Fin 2048) :
    scores q k (ix2 p m) = (∑ c : Fin 64, q (ix2 p c) * k (ix2 m c)) * Cert.Attn.scaleWord := by
  unfold scores
  refine (mulf_apply _ _ _).trans ?_
  refine congrArg (· * Cert.Attn.scaleWord) ?_
  exact Cert.LibDotLastAxis.matmulT_zero_apply dot_S256x64_S2048x64_S256x2048_1_1_0_0_n_n_wf none q k p m

theorem weights_apply (s : FVec Ideal S256x2048 .f32) (p : Fin 256) (m : Fin 2048) :
    weights s (ix2 p m)
      = Ideal.exp (s (ix2 p m) - (Finset.univ : Finset (Fin 2048)).fold max Cert.Attn.startWord (fun k => s (ix2 p k))) := by
  unfold weights
  refine congrArg (fun z => Ideal.exp (s (ix2 p m) - z)) ?_
  exact (broadcastTo_a1_ab_apply _ _ p m).trans ((shapeCast_a_a1_apply _ _ p 0).trans (rowMax_apply s _ _ _ _ p))

theorem normalized_apply (e : FVec Ideal S256x2048 .f32) (p : Fin 256) (m : Fin 2048) :
    normalized e (ix2 p m) = Ideal.div (e (ix2 p m)) (∑ k : Fin 2048, e (ix2 p k)) := by
  unfold normalized
  refine (divf_apply _ _ _).trans (congrArg (Ideal.div (e (ix2 p m))) ?_)
  exact (broadcastTo_a1_ab_apply _ _ p m).trans ((shapeCast_a_a1_apply _ _ p 0).trans (rowSum_apply e _ _ _ _ p))

/-- The head's output at row `p`, column `d`: the value column averaged with the row's normalized weights. -/
theorem headCore_apply (q : FVec Ideal S256x64 .bf16) (k v : FVec Ideal S2048x64 .bf16) (p : Fin 256) (d : Fin 64) :
    headCore q k v (ix2 p d)
      = Cert.Attn.attend (fun c => q (ix2 p c)) (fun m c => k (ix2 m c)) (fun m => v (ix2 m d)) := by
  have hs : (fun m' : Fin 2048 => scores q k (ix2 p m'))
      = Cert.Attn.score (fun c => q (ix2 p c)) (fun m c => k (ix2 m c)) := funext fun m' => scores_apply q k p m'
  have hw : ∀ m' : Fin 2048, weights (scores q k) (ix2 p m')
      = Cert.Attn.weight (fun c => q (ix2 p c)) (fun m c => k (ix2 m c)) m' := fun m' =>
    (weights_apply _ p m').trans
      (congrArg₂ (fun (a : EReal) (f : Fin 2048 → EReal) => Ideal.exp (a - (Finset.univ : Finset (Fin 2048)).fold max Cert.Attn.startWord f))
        (congrFun hs m') hs)
  unfold headCore
  refine (Cert.LibPlainDot.matmul_plain_zero_apply none _ v p d).trans ?_
  unfold Cert.Attn.attend
  refine Finset.sum_congr rfl fun m _ => congrArg (· * v (ix2 m d)) ?_
  refine (truncf_apply (φ := .f32) (ψ := .bf16) (normalized (weights (scores q k))) bitsLt_bf16_f32 (ix2 p m)).trans
    ((normalized_apply _ p m).trans ?_)
  exact congrArg₂ Ideal.div (hw m) (Finset.sum_congr rfl fun m' _ => hw m')

theorem head3_apply (q : Vec Ideal S1x256x64 .bf16) (k v : Vec Ideal S1x2048x64 .bf16) (p : Fin 256) (d : Fin 64) :
    head3 q k v (ix2 p d)
      = Cert.Attn.attend (fun c => q (ix3 (0 : Fin 1) p c)) (fun m c => k (ix3 (0 : Fin 1) m c)) (fun m => v (ix3 (0 : Fin 1) m d)) := by
  unfold head3
  refine (headCore_apply _ _ _ p d).trans ?_
  simp only [shapeCast_1ab_ab_apply]

/-- In the left half of a pair tile sits the first head. -/
theorem pairTile_left (q0 : Vec Ideal S1x256x64 .bf16) (k0 v0 : Vec Ideal S1x2048x64 .bf16)
    (q1 : Vec Ideal S1x256x64 .bf16) (k1 v1 : Vec Ideal S1x2048x64 .bf16) (p : Fin 256) (r : Fin 128) (hr : r.val < 64) :
    pairTile q0 k0 v0 q1 k1 v1 (ix2 p r) = head3 q0 k0 v0 (ix2 p (⟨r.val, hr⟩ : Fin 64)) := by
  unfold pairTile
  rw [shapeCast_self]
  refine concatenate_pair_apply_left (t := S256x128) (s₁ := S256x64) (s₂ := S256x64) 1 _ _ _ (ix2 p r) rfl (ix2 p (⟨r.val, hr⟩ : Fin 64)) fun b => ?_
  match b with
  | ⟨0, _⟩ => rfl
  | ⟨1, _⟩ => rfl

/-- In the right half sits the second head. -/
theorem pairTile_right (q0 : Vec Ideal S1x256x64 .bf16) (k0 v0 : Vec Ideal S1x2048x64 .bf16)
    (q1 : Vec Ideal S1x256x64 .bf16) (k1 v1 : Vec Ideal S1x2048x64 .bf16) (p : Fin 256) (r : Fin 128) (hr : 64 ≤ r.val) :
    pairTile q0 k0 v0 q1 k1 v1 (ix2 p r) = head3 q1 k1 v1 (ix2 p (⟨r.val - 64, by omega⟩ : Fin 64)) := by
  unfold pairTile
  rw [shapeCast_self]
  refine concatenate_pair_apply_right (t := S256x128) (s₁ := S256x64) (s₂ := S256x64) 1 _ _ _ (ix2 p r) rfl rfl (ix2 p (⟨r.val - 64, by omega⟩ : Fin 64)) (fun b hb => ?_) ?_
  · match b with
    | ⟨0, _⟩ => rfl
    | ⟨1, _⟩ => exact absurd rfl hb
  · show (r.val - 64) + 64 = r.val
    omega

end Cert.KSide

end
-- ==== Proof.Tiles.lean ====
/-
  What the second kernel's body leaves in its output block.

  The body computes the sixteen heads two at a time and stores each pair as a tile of 128 columns of a 256 x 1024
  accumulator; the eight tiles fill it. It then reads the accumulator back whole and multiplies it by the block of the
  output weights. Entry (p, e) of the accumulator is therefore the output of head e / 64 at row p, column e of the
  value rows; it does not depend on what the accumulator held before.
-/
import proofs.«180985_j31430570672467_2_alg».proof.Proof.Gen.KernelIdeal.Frame
import proofs.«180985_j31430570672467_2_alg».proof.Proof.Head
import Idealize.ShloMosaic.Lib.Writes

set_option maxRecDepth 16384

noncomputable section

namespace Cert.KSide

open Idealize.ShloMosaic Idealize.ShloMosaic.ValueIdx Idealize.ShloMosaic.Tactic Idealize.SL.Sem Cert.KernelIdeal Cert.KernelIdeal.Gen

/-! ## Each stored tile is a pair of heads

The kernel's text is cut into stretches of equal length, so the same arithmetic appears under eight different
groupings of intermediate values; each is the pair tile of the six slices it loads. -/

section
variable {F : FTy → Type} [FloatOps F]

theorem tile0 (q0 : Vec F S1x256x64 .bf16) (k0 v0 : Vec F S1x2048x64 .bf16) (q1 : Vec F S1x256x64 .bf16) (k1 v1 : Vec F S1x2048x64 .bf16) :
    k1_pay7 (k1_pay3 q0 k0 v0) (k1_pay4 v1) (k1_pay5 q1 k1) (k1_pay6 q1 k1) = pairTile q0 k0 v0 q1 k1 v1 := rfl
theorem tile1 (q0 : Vec F S1x256x64 .bf16) (k0 v0 : Vec F S1x2048x64 .bf16) (q1 : Vec F S1x256x64 .bf16) (k1 v1 : Vec F S1x2048x64 .bf16) :
    k1_pay10 (k1_pay8 q0 k0 v0) (k1_pay9 q1) k1 v1 = pairTile q0 k0 v0 q1 k1 v1 := rfl
theorem tile2 (q0 : Vec F S1x256x64 .bf16) (k0 v0 : Vec F S1x2048x64 .bf16) (q1 : Vec F S1x256x64 .bf16) (k1 v1 : Vec F S1x2048x64 .bf16) :
    k1_pay14 (k1_pay11 v0) (k1_pay12 q0 k0) (k1_pay13 q0 k0) q1 k1 v1 = pairTile q0 k0 v0 q1 k1 v1 := rfl
theorem tile3 (q0 : Vec F S1x256x64 .bf16) (k0 v0 : Vec F S1x2048x64 .bf16) (q1 : Vec F S1x256x64 .bf16) (k1 v1 : Vec F S1x2048x64 .bf16) :
    k1_pay18 (k1_pay17 (k1_pay15 q0) (k1_pay16 k0) v0 q1 k1 v1) = pairTile q0 k0 v0 q1 k1 v1 := rfl
theorem tile4 (q0 : Vec F S1x256x64 .bf16) (k0 v0 : Vec F S1x2048x64 .bf16) (q1 : Vec F S1x256x64 .bf16) (k1 v1 : Vec F S1x2048x64 .bf16) :
    k1_pay23 (k1_pay19 q0 k0 v0) (k1_pay20 v1) (k1_pay21 q1 k1) (k1_pay22 q1 k1) = pairTile q0 k0 v0 q1 k1 v1 := rfl
theorem tile5 (q0 : Vec F S1x256x64 .bf16) (k0 v0 : Vec F S1x2048x64 .bf16) (q1 : Vec F S1x256x64 .bf16) (k1 v1 : Vec F S1x2048x64 .bf16) :
    k1_pay26 (k1_pay24 q0 k0 v0) (k1_pay25 q1) k1 v1 = pairTile q0 k0 v0 q1 k1 v1 := rfl
theorem tile6 (q0 : Vec F S1x256x64 .bf16) (k0 v0 : Vec F S1x2048x64 .bf16) (q1 : Vec F S1x256x64 .bf16) (k1 v1 : Vec F S1x2048x64 .bf16) :
    k1_pay30 (k1_pay27 v0) (k1_pay28 q0 k0) (k1_pay29 q0 k0) q1 k1 v1 = pairTile q0 k0 v0 q1 k1 v1 := rfl
theorem tile7 (q0 : Vec F S1x256x64 .bf16) (k0 v0 : Vec F S1x2048x64 .bf16) (q1 : Vec F S1x256x64 .bf16) (k1 v1 : Vec F S1x2048x64 .bf16) :
    k1_pay1 (k1_pay33 (k1_pay31 q0) (k1_pay32 k0) v0 q1 k1 v1) = pairTile q0 k0 v0 q1 k1 v1 := rfl

end

/-! ## A slice of 64 columns read at an entry -/

/-- A load of 64 columns starting at column `o` of a one-sample block reads, at (u, p, c), the block at (0, p, o + c). -/
theorem ld_cols {Val : EltTy → Type} {e : EltTy} {R : ℕ} (X : (⟨3, ![1, R, 1024]⟩ : Shape).Idx → Val e) (o : ℕ)
    (inb : ∀ a, (![0, 0, o] : Fin 3 → ℕ) a + (![1, R, 64] : Fin 3 → ℕ) a ≤ (⟨3, ![1, R, 1024]⟩ : Shape).size a)
    (u : Fin 1) (p : Fin R) (c : Fin 64) (h : o + c.val < 1024) :
    View.ld X (Rect.unit (s := ⟨3, ![1, R, 1024]⟩) ![0, 0, o] ![1, R, 64] inb) (ix3 u p c)
      = X (ix3 (0 : Fin 1) p (⟨o + c.val, h⟩ : Fin 1024)) := by
  refine congrArg X (funext fun a => Fin.ext ?_)
  match a with
  | ⟨0, _⟩ => show 0 + 1 * u.val = 0; omega
  | ⟨1, _⟩ => show 0 + 1 * p.val = p.val; omega
  | ⟨2, _⟩ => show o + 1 * c.val = o + c.val; omega

theorem attend_congr {q q' : Fin 64 → EReal} {k k' : Fin 2048 → Fin 64 → EReal} {v v' : Fin 2048 → EReal}
    (hq : ∀ c, q c = q' c) (hk : ∀ m c, k m c = k' m c) (hv : ∀ m, v m = v' m) :
    Cert.Attn.attend q k v = Cert.Attn.attend q' k' v' := by
  obtain rfl : q = q' := funext hq
  obtain rfl : k = k' := funext fun m => funext (hk m)
  obtain rfl : v = v' := funext hv
  rfl

/-! ## The accumulator after the eight stores -/

/-- Entry (p, e) of the accumulator: the head that column e belongs to, attending from query row p of the query block
    over all key and value rows of the sample. -/
def mixAt (x0 : Vec Ideal S1x256x1024 .bf16) (x1 x2 : Vec Ideal S1x2048x1024 .bf16) (p : Fin 256) (e : Fin 1024) : EReal :=
  Cert.Attn.attend (fun c => x0 (ix3 (0 : Fin 1) p (Cert.Attn.headCol e c)))
    (fun m c => x1 (ix3 (0 : Fin 1) m (Cert.Attn.headCol e c))) (fun m => x2 (ix3 (0 : Fin 1) m e))

def mixTile (x0 : Vec Ideal S1x256x1024 .bf16) (x1 x2 : Vec Ideal S1x2048x1024 .bf16) : Vec Ideal S256x1024 .f32 :=
  fun y => mixAt x0 x1 x2 (y 0) (y 1)

/-- The pair tile loaded at columns `o` and `o' = o + 64`, where `o` is a multiple of 128, is the accumulator's
    function on the 128 columns from `o`. -/
theorem pair_is_mix (x0 : Vec Ideal S1x256x1024 .bf16) (x1 x2 : Vec Ideal S1x2048x1024 .bf16) (o o' : ℕ)
    (ho : o % 128 = 0) (hle : o + 128 ≤ 1024) (ho' : o' = o + 64)
    (iq0 : ∀ a, (![0, 0, o] : Fin 3 → ℕ) a + (![1, 256, 64] : Fin 3 → ℕ) a ≤ S1x256x1024.size a)
    (ik0 iv0 : ∀ a, (![0, 0, o] : Fin 3 → ℕ) a + (![1, 2048, 64] : Fin 3 → ℕ) a ≤ S1x2048x1024.size a)
    (iq1 : ∀ a, (![0, 0, o'] : Fin 3 → ℕ) a + (![1, 256, 64] : Fin 3 → ℕ) a ≤ S1x256x1024.size a)
    (ik1 iv1 : ∀ a, (![0, 0, o'] : Fin 3 → ℕ) a + (![1, 2048, 64] : Fin 3 → ℕ) a ≤ S1x2048x1024.size a)
    (it : ∀ a, (![0, o] : Fin 2 → ℕ) a + (![256, 128] : Fin 2 → ℕ) a ≤ S256x1024.size a)
    (x : S256x128.Idx) :
    pairTile (View.ld x0 (Rect.unit ![0, 0, o] S1x256x64.size iq0)) (View.ld x1 (Rect.unit ![0, 0, o] S1x2048x64.size ik0))
        (View.ld x2 (Rect.unit ![0, 0, o] S1x2048x64.size iv0)) (View.ld x0 (Rect.unit ![0, 0, o'] S1x256x64.size iq1))
        (View.ld x1 (Rect.unit ![0, 0, o'] S1x2048x64.size ik1)) (View.ld x2 (Rect.unit ![0, 0, o'] S1x2048x64.size iv1)) x
      = mixTile x0 x1 x2 ((Rect.unit (s := S256x1024) ![0, o] ![256, 128] it).emb x) := by
  subst ho'
  obtain ⟨p, r, rfl⟩ : ∃ (p : Fin 256) (r : Fin 128), x = ix2 p r := ⟨x 0, x 1, eq_ix2 x⟩
  have hr128 := r.isLt
  have hemb : (Rect.unit (s := S256x1024) ![0, o] ![256, 128] it).emb (ix2 p r) = ix2 p (⟨o + r.val, by omega⟩ : Fin 1024) :=
    funext fun a => Fin.ext (by
      match a with
      | ⟨0, _⟩ => show 0 + 1 * p.val = p.val; omega
      | ⟨1, _⟩ => show o + 1 * r.val = o + r.val; omega)
  rw [hemb]
  show _ = mixAt x0 x1 x2 p (⟨o + r.val, by omega⟩ : Fin 1024)
  unfold mixAt
  by_cases hr : r.val < 64
  · rw [pairTile_left _ _ _ _ _ _ p r hr, head3_apply]
    refine attend_congr (fun c => ?_) (fun m c => ?_) (fun m => ?_)
    · have hc := c.isLt
      refine (ld_cols x0 o iq0 0 p c (by omega)).trans (congrArg (fun e => x0 (ix3 (0 : Fin 1) p e)) (Fin.ext ?_))
      show o + c.val = 64 * ((o + r.val) / 64) + c.val
      omega
    · have hc := c.isLt
      refine (ld_cols x1 o ik0 0 m c (by omega)).trans (congrArg (fun e => x1 (ix3 (0 : Fin 1) m e)) (Fin.ext ?_))
      show o + c.val = 64 * ((o + r.val) / 64) + c.val
      omega
    · exact (ld_cols x2 o iv0 0 m (⟨r.val, hr⟩ : Fin 64) (by show o + r.val < 1024; omega))
  · have hr' : 64 ≤ r.val := by omega
    rw [pairTile_right _ _ _ _ _ _ p r hr', head3_apply]
    refine attend_congr (fun c => ?_) (fun m c => ?_) (fun m => ?_)
    · have hc := c.isLt
      refine (ld_cols x0 (o + 64) iq1 0 p c (by omega)).trans (congrArg (fun e => x0 (ix3 (0 : Fin 1) p e)) (Fin.ext ?_))
      show o + 64 + c.val = 64 * ((o + r.val) / 64) + c.val
      omega
    · have hc := c.isLt
      refine (ld_cols x1 (o + 64) ik1 0 m c (by omega)).trans (congrArg (fun e => x1 (ix3 (0 : Fin 1) m e)) (Fin.ext ?_))
      show o + 64 + c.val = 64 * ((o + r.val) / 64) + c.val
      omega
    · refine (ld_cols x2 (o + 64) iv1 0 m (⟨r.val - 64, by omega⟩ : Fin 64) (by show o + 64 + (r.val - 64) < 1024; omega)).trans
        (congrArg (fun e => x2 (ix3 (0 : Fin 1) m e)) (Fin.ext ?_))
      show o + 64 + (r.val - 64) = o + r.val
      omega

/-- The eight stored tiles, last first, as the body leaves them. -/
def tiles (x0 : Vec Ideal S1x256x1024 .bf16) (x1 x2 : Vec Ideal S1x2048x1024 .bf16) :
    List (View.Piece (Elt Ideal) S256x1024 .f32) :=
  [⟨Rect.unit ![0, 896] ![256, 128] inb_S256x1024_S256x128_0_896, pairTile (View.ld x0 (Rect.unit ![0, 0, 896] S1x256x64.size inb_S1x256x1024_S1x256x64_0_0_896)) (View.ld x1 (Rect.unit ![0, 0, 896] S1x2048x64.size inb_S1x2048x1024_S1x2048x64_0_0_896)) (View.ld x2 (Rect.unit ![0, 0, 896] S1x2048x64.size inb_S1x2048x1024_S1x2048x64_0_0_896)) (View.ld x0 (Rect.unit ![0, 0, 960] S1x256x64.size inb_S1x256x1024_S1x256x64_0_0_960)) (View.ld x1 (Rect.unit ![0, 0, 960] S1x2048x64.size inb_S1x2048x1024_S1x2048x64_0_0_960)) (View.ld x2 (Rect.unit ![0, 0, 960] S1x2048x64.size inb_S1x2048x1024_S1x2048x64_0_0_960))⟩,
      ⟨Rect.unit ![0, 768] S256x128.size inb_S256x1024_S256x128_0_768, pairTile (View.ld x0 (Rect.unit ![0, 0, 768] S1x256x64.size inb_S1x256x1024_S1x256x64_0_0_768)) (View.ld x1 (Rect.unit ![0, 0, 768] S1x2048x64.size inb_S1x2048x1024_S1x2048x64_0_0_768)) (View.ld x2 (Rect.unit ![0, 0, 768] S1x2048x64.size inb_S1x2048x1024_S1x2048x64_0_0_768)) (View.ld x0 (Rect.unit ![0, 0, 832] S1x256x64.size inb_S1x256x1024_S1x256x64_0_0_832)) (View.ld x1 (Rect.unit ![0, 0, 832] S1x2048x64.size inb_S1x2048x1024_S1x2048x64_0_0_832)) (View.ld x2 (Rect.unit ![0, 0, 832] S1x2048x64.size inb_S1x2048x1024_S1x2048x64_0_0_832))⟩,
      ⟨Rect.unit ![0, 640] S256x128.size inb_S256x1024_S256x128_0_640, pairTile (View.ld x0 (Rect.unit ![0, 0, 640] S1x256x64.size inb_S1x256x1024_S1x256x64_0_0_640)) (View.ld x1 (Rect.unit ![0, 0, 640] S1x2048x64.size inb_S1x2048x1024_S1x2048x64_0_0_640)) (View.ld x2 (Rect.unit ![0, 0, 640] S1x2048x64.size inb_S1x2048x1024_S1x2048x64_0_0_640)) (View.ld x0 (Rect.unit ![0, 0, 704] S1x256x64.size inb_S1x256x1024_S1x256x64_0_0_704)) (View.ld x1 (Rect.unit ![0, 0, 704] S1x2048x64.size inb_S1x2048x1024_S1x2048x64_0_0_704)) (View.ld x2 (Rect.unit ![0, 0, 704] S1x2048x64.size inb_S1x2048x1024_S1x2048x64_0_0_704))⟩,
      ⟨Rect.unit ![0, 512] S256x128.size inb_S256x1024_S256x128_0_512, pairTile (View.ld x0 (Rect.unit ![0, 0, 512] S1x256x64.size inb_S1x256x1024_S1x256x64_0_0_512)) (View.ld x1 (Rect.unit ![0, 0, 512] S1x2048x64.size inb_S1x2048x1024_S1x2048x64_0_0_512)) (View.ld x2 (Rect.unit ![0, 0, 512] S1x2048x64.size inb_S1x2048x1024_S1x2048x64_0_0_512)) (View.ld x0 (Rect.unit ![0, 0, 576] S1x256x64.size inb_S1x256x1024_S1x256x64_0_0_576)) (View.ld x1 (Rect.unit ![0, 0, 576] S1x2048x64.size inb_S1x2048x1024_S1x2048x64_0_0_576)) (View.ld x2 (Rect.unit ![0, 0, 576] S1x2048x64.size inb_S1x2048x1024_S1x2048x64_0_0_576))⟩,
      ⟨Rect.unit ![0, 384] S256x128.size inb_S256x1024_S256x128_0_384, pairTile (View.ld x0 (Rect.unit ![0, 0, 384] S1x256x64.size inb_S1x256x1024_S1x256x64_0_0_384)) (View.ld x1 (Rect.unit ![0, 0, 384] S1x2048x64.size inb_S1x2048x1024_S1x2048x64_0_0_384)) (View.ld x2 (Rect.unit ![0, 0, 384] S1x2048x64.size inb_S1x2048x1024_S1x2048x64_0_0_384)) (View.ld x0 (Rect.unit ![0, 0, 448] S1x256x64.size inb_S1x256x1024_S1x256x64_0_0_448)) (View.ld x1 (Rect.unit ![0, 0, 448] S1x2048x64.size inb_S1x2048x1024_S1x2048x64_0_0_448)) (View.ld x2 (Rect.unit ![0, 0, 448] S1x2048x64.size inb_S1x2048x1024_S1x2048x64_0_0_448))⟩,
      ⟨Rect.unit ![0, 256] S256x128.size inb_S256x1024_S256x128_0_256, pairTile (View.ld x0 (Rect.unit ![0, 0, 256] S1x256x64.size inb_S1x256x1024_S1x256x64_0_0_256)) (View.ld x1 (Rect.unit ![0, 0, 256] S1x2048x64.size inb_S1x2048x1024_S1x2048x64_0_0_256)) (View.ld x2 (Rect.unit ![0, 0, 256] S1x2048x64.size inb_S1x2048x1024_S1x2048x64_0_0_256)) (View.ld x0 (Rect.unit ![0, 0, 320] S1x256x64.size inb_S1x256x1024_S1x256x64_0_0_320)) (View.ld x1 (Rect.unit ![0, 0, 320] S1x2048x64.size inb_S1x2048x1024_S1x2048x64_0_0_320)) (View.ld x2 (Rect.unit ![0, 0, 320] S1x2048x64.size inb_S1x2048x1024_S1x2048x64_0_0_320))⟩,
      ⟨Rect.unit ![0, 128] S256x128.size inb_S256x1024_S256x128_0_128, pairTile (View.ld x0 (Rect.unit ![0, 0, 128] S1x256x64.size inb_S1x256x1024_S1x256x64_0_0_128)) (View.ld x1 (Rect.unit ![0, 0, 128] S1x2048x64.size inb_S1x2048x1024_S1x2048x64_0_0_128)) (View.ld x2 (Rect.unit ![0, 0, 128] S1x2048x64.size inb_S1x2048x1024_S1x2048x64_0_0_128)) (View.ld x0 (Rect.unit ![0, 0, 192] S1x256x64.size inb_S1x256x1024_S1x256x64_0_0_192)) (View.ld x1 (Rect.unit ![0, 0, 192] S1x2048x64.size inb_S1x2048x1024_S1x2048x64_0_0_192)) (View.ld x2 (Rect.unit ![0, 0, 192] S1x2048x64.size inb_S1x2048x1024_S1x2048x64_0_0_192))⟩,
      ⟨Rect.unit ![0, 0] S256x128.size inb_S256x1024_S256x128_0_0, pairTile (View.ld x0 (Rect.unit ![0, 0, 0] S1x256x64.size inb_S1x256x1024_S1x256x64_0_0_0)) (View.ld x1 (Rect.unit ![0, 0, 0] S1x2048x64.size inb_S1x2048x1024_S1x2048x64_0_0_0)) (View.ld x2 (Rect.unit ![0, 0, 0] S1x2048x64.size inb_S1x2048x1024_S1x2048x64_0_0_0)) (View.ld x0 (Rect.unit ![0, 0, 64] S1x256x64.size inb_S1x256x1024_S1x256x64_0_0_64)) (View.ld x1 (Rect.unit ![0, 0, 64] S1x2048x64.size inb_S1x2048x1024_S1x2048x64_0_0_64)) (View.ld x2 (Rect.unit ![0, 0, 64] S1x2048x64.size inb_S1x2048x1024_S1x2048x64_0_0_64))⟩]

/-- The eight tiles of 128 columns fill the 1024 columns. -/
theorem tiles_cover (x0 : Vec Ideal S1x256x1024 .bf16) (x1 x2 : Vec Ideal S1x2048x1024 .bf16) (y : S256x1024.Idx) :
    ∃ pc ∈ tiles x0 x1 x2, y ∈ pc.1.set :=
  View.cover_of_tiled (tiles x0 x1 x2) S256x128.size (by rfl) y

/-- Read back whole after the eight stores, the accumulator holds the sixteen heads' outputs side by side, whatever
    it held before. -/
theorem scratch_value (x0 : Vec Ideal S1x256x1024 .bf16) (x1 x2 : Vec Ideal S1x2048x1024 .bf16)
    (a7 : Memref sig .tc .vmem S256x1024 .f32) :
    a7.view.readCov (tiles x0 x1 x2) (Rect.unit ![0, 0] ![256, 1024] inb_S256x1024_S256x1024_0_0).toLoadRect
      = mixTile x0 x1 x2 := by
  have hz : (![0, 0] : Fin 2 → ℕ) = fun _ => 0 := funext fun a => by match a with | ⟨0, _⟩ => rfl | ⟨1, _⟩ => rfl
  rw [View.readCov_eq_canon_ld a7.view (tiles x0 x1 x2) _ (tiles_cover x0 x1 x2), View.ld_unit_zero (S := S256x1024) hz]
  funext y
  refine View.canon_apply_of_pieces (mixTile x0 x1 x2) (tiles x0 x1 x2) ?_ y (tiles_cover x0 x1 x2 y)
  intro pc hpc x
  unfold tiles at hpc
  simp only [List.mem_cons, List.not_mem_nil, or_false] at hpc
  rcases hpc with rfl | rfl | rfl | rfl | rfl | rfl | rfl | rfl
  · exact pair_is_mix x0 x1 x2 896 960 (by decide) (by decide) rfl inb_S1x256x1024_S1x256x64_0_0_896 inb_S1x2048x1024_S1x2048x64_0_0_896 inb_S1x2048x1024_S1x2048x64_0_0_896
      inb_S1x256x1024_S1x256x64_0_0_960 inb_S1x2048x1024_S1x2048x64_0_0_960 inb_S1x2048x1024_S1x2048x64_0_0_960 inb_S256x1024_S256x128_0_896 x
  · exact pair_is_mix x0 x1 x2 768 832 (by decide) (by decide) rfl inb_S1x256x1024_S1x256x64_0_0_768 inb_S1x2048x1024_S1x2048x64_0_0_768 inb_S1x2048x1024_S1x2048x64_0_0_768
      inb_S1x256x1024_S1x256x64_0_0_832 inb_S1x2048x1024_S1x2048x64_0_0_832 inb_S1x2048x1024_S1x2048x64_0_0_832 inb_S256x1024_S256x128_0_768 x
  · exact pair_is_mix x0 x1 x2 640 704 (by decide) (by decide) rfl inb_S1x256x1024_S1x256x64_0_0_640 inb_S1x2048x1024_S1x2048x64_0_0_640 inb_S1x2048x1024_S1x2048x64_0_0_640
      inb_S1x256x1024_S1x256x64_0_0_704 inb_S1x2048x1024_S1x2048x64_0_0_704 inb_S1x2048x1024_S1x2048x64_0_0_704 inb_S256x1024_S256x128_0_640 x
  · exact pair_is_mix x0 x1 x2 512 576 (by decide) (by decide) rfl inb_S1x256x1024_S1x256x64_0_0_512 inb_S1x2048x1024_S1x2048x64_0_0_512 inb_S1x2048x1024_S1x2048x64_0_0_512
      inb_S1x256x1024_S1x256x64_0_0_576 inb_S1x2048x1024_S1x2048x64_0_0_576 inb_S1x2048x1024_S1x2048x64_0_0_576 inb_S256x1024_S256x128_0_512 x
  · exact pair_is_mix x0 x1 x2 384 448 (by decide) (by decide) rfl inb_S1x256x1024_S1x256x64_0_0_384 inb_S1x2048x1024_S1x2048x64_0_0_384 inb_S1x2048x1024_S1x2048x64_0_0_384
      inb_S1x256x1024_S1x256x64_0_0_448 inb_S1x2048x1024_S1x2048x64_0_0_448 inb_S1x2048x1024_S1x2048x64_0_0_448 inb_S256x1024_S256x128_0_384 x
  · exact pair_is_mix x0 x1 x2 256 320 (by decide) (by decide) rfl inb_S1x256x1024_S1x256x64_0_0_256 inb_S1x2048x1024_S1x2048x64_0_0_256 inb_S1x2048x1024_S1x2048x64_0_0_256
      inb_S1x256x1024_S1x256x64_0_0_320 inb_S1x2048x1024_S1x2048x64_0_0_320 inb_S1x2048x1024_S1x2048x64_0_0_320 inb_S256x1024_S256x128_0_256 x
  · exact pair_is_mix x0 x1 x2 128 192 (by decide) (by decide) rfl inb_S1x256x1024_S1x256x64_0_0_128 inb_S1x2048x1024_S1x2048x64_0_0_128 inb_S1x2048x1024_S1x2048x64_0_0_128
      inb_S1x256x1024_S1x256x64_0_0_192 inb_S1x2048x1024_S1x2048x64_0_0_192 inb_S1x2048x1024_S1x2048x64_0_0_192 inb_S256x1024_S256x128_0_128 x
  · exact pair_is_mix x0 x1 x2 0 64 (by decide) (by decide) rfl inb_S1x256x1024_S1x256x64_0_0_0 inb_S1x2048x1024_S1x2048x64_0_0_0 inb_S1x2048x1024_S1x2048x64_0_0_0
      inb_S1x256x1024_S1x256x64_0_0_64 inb_S1x2048x1024_S1x2048x64_0_0_64 inb_S1x2048x1024_S1x2048x64_0_0_64 inb_S256x1024_S256x128_0_0 x

/-! ## The closing product, and the output block -/

/-- The accumulator times the output weights' block, at (u, p, j). -/
theorem outProj_apply (x3 : Vec Ideal S1x1024x1024 .bf16) (s : Vec Ideal S256x1024 .f32) (u : Fin 1) (p : Fin 256) (j : Fin 1024) :
    k1_pay2 x3 s (ix3 u p j) = ∑ e : Fin 1024, s (ix2 p e) * x3 (ix3 (0 : Fin 1) e j) := by
  unfold k1_pay2
  refine (shapeCast_ab_1ab_apply _ _ u p j).trans ?_
  refine (Cert.LibPlainDot.matmul_plain_zero_apply none _ _ p j).trans ?_
  exact Finset.sum_congr rfl fun e _ => congrArg (s (ix2 p e) * ·) (shapeCast_1ab_ab_apply _ _ e j)

/-- What the body leaves in the output block, from the four input blocks: the accumulator's function times the output
    weights' block. -/
theorem out1_closed (c : Dev nD) (i : grid1.Coords) (a2 : Memref sig .tc .vmem S1x256x1024 .bf16) (h2 : a2.IsWhole)
    (a3 : Memref sig .tc .vmem S1x2048x1024 .bf16) (h3 : a3.IsWhole) (a4 : Memref sig .tc .vmem S1x2048x1024 .bf16) (h4 : a4.IsWhole)
    (a5 : Memref sig .tc .vmem S1x1024x1024 .bf16) (h5 : a5.IsWhole) (a6 : Memref sig .tc .vmem S1x256x1024 .f32) (h6 : a6.IsWhole)
    (a7 : Memref sig .tc .vmem S256x1024 .f32) (h7 : a7.IsWhole)
    (x0 : Vec Ideal S1x256x1024 .bf16) (x1 x2 : Vec Ideal S1x2048x1024 .bf16) (x3 : Vec Ideal S1x1024x1024 .bf16) :
    out1_A_4 (F := Ideal) c i a2 h2 a3 h3 a4 h4 a5 h5 a6 h6 a7 h7 x0 x1 x2 x3 = k1_pay2 x3 (mixTile x0 x1 x2) := by
  have hz : (![0, 0, 0] : Fin 3 → ℕ) = fun _ => 0 := funext fun a => by match a with | ⟨0, _⟩ => rfl | ⟨1, _⟩ => rfl | ⟨2, _⟩ => rfl
  unfold out1_A_4
  rw [View.read_writes_eq_canon _ _ _ (cover1_A_4 c i a2 h2 a3 h3 a4 h4 a5 h5 a6 h6 a7 h7 x0 x1 x2 x3)]
  unfold kernelRun1_A
  dsimp only
  sl_unfold_words
  rw [View.canon_unit_zero hz]
  simp only [View.readAt_eq_ld, h2.read_unread, h3.read_unread, h4.read_unread, h5.read_unread,
    View.ld_unit_zero (S := S1x1024x1024) hz, tile0, tile1, tile2, tile3, tile4, tile5, tile6, tile7]
  exact congrArg (k1_pay2 x3) (scratch_value x0 x1 x2 a7)

end Cert.KSide

end
-- ==== Proof.Region1.lean ====
/-
  The second kernel's output array.

  The grid has a point for each sample b and each tile of 256 query rows. At a point the body reads that tile of the
  queries, all key rows, all value rows and the output weights of sample b, and writes the tile of 256 output rows. The
  tiles fill the output array, so entry (b, n, j) is the sum over the 1024 mixed columns e of head e / 64's output at
  row n, times the output weight (b, e, j).
-/
import proofs.«180985_j31430570672467_2_alg».proof.Proof.Tiles

set_option maxRecDepth 16384

noncomputable section

namespace Cert.KSide

open Idealize.ShloMosaic Idealize.ShloMosaic.ValueIdx Idealize.ShloMosaic.TcCoe Idealize.SL.Sem Cert.KernelIdeal Cert.KernelIdeal.Gen
open Idealize.ShloMosaic.Pipeline (Dat)

/-- The output entry (b, n, j) from the three projected arrays and the output weights. -/
def outFrom (Q K Vv : S4x2048x1024.Idx → EReal) (Wo : S4x1024x1024.Idx → EReal) (b : Fin 4) (n : Fin 2048) (j : Fin 1024) : EReal :=
  ∑ e : Fin 1024, Cert.Attn.attend (fun c => Q (ix3 b n (Cert.Attn.headCol e c))) (fun m c => K (ix3 b m (Cert.Attn.headCol e c)))
    (fun m => Vv (ix3 b m e)) * Wo (ix3 b e j)

def outArr (Q K Vv : S4x2048x1024.Idx → EReal) (Wo : S4x1024x1024.Idx → EReal) : S4x2048x1024.Idx → EReal :=
  fun i => outFrom Q K Vv Wo (i 0) (i 1) (i 2)

/-- One output tile: if the four blocks are the tile of query rows from row `r` of sample `b`, and sample `b`'s
    keys, values and output weights, the body's result at (u, p, j) is the output entry (b, r + p, j). -/
theorem block_value (Q K Vv : S4x2048x1024.Idx → EReal) (Wo : S4x1024x1024.Idx → EReal)
    (x0 : Vec Ideal S1x256x1024 .bf16) (x1 x2 : Vec Ideal S1x2048x1024 .bf16) (x3 : Vec Ideal S1x1024x1024 .bf16)
    (b : Fin 4) (r : ℕ) (hr : r + 256 ≤ 2048)
    (h0 : ∀ (p : Fin 256) (e : Fin 1024), x0 (ix3 (0 : Fin 1) p e) = Q (ix3 b (⟨r + p.val, by omega⟩ : Fin 2048) e))
    (h1 : ∀ (m : Fin 2048) (e : Fin 1024), x1 (ix3 (0 : Fin 1) m e) = K (ix3 b m e))
    (h2 : ∀ (m : Fin 2048) (e : Fin 1024), x2 (ix3 (0 : Fin 1) m e) = Vv (ix3 b m e))
    (h3 : ∀ (e j : Fin 1024), x3 (ix3 (0 : Fin 1) e j) = Wo (ix3 b e j))
    (u : Fin 1) (p : Fin 256) (j : Fin 1024) :
    k1_pay2 x3 (mixTile x0 x1 x2) (ix3 u p j) = outFrom Q K Vv Wo b (⟨r + p.val, by omega⟩ : Fin 2048) j := by
  rw [outProj_apply]
  unfold outFrom
  refine Finset.sum_congr rfl fun e _ => ?_
  rw [h3]
  refine congrArg (· * Wo (ix3 b e j)) ?_
  show mixAt x0 x1 x2 p e = _
  unfold mixAt
  exact attend_congr (fun c => h0 p _) (fun m c => h1 m _) (fun m => h2 m e)

section
variable (V : (c : Dev nD) → (b : Ref sig .tc) → Buf (Elt Ideal) ((c : Thread nD τ).loc b))

/-- The index maps over the grid: the query and output windows move together over samples and row tiles; the key,
    value and weight windows move over samples only. -/
theorem idx_facts1 : ∀ t : Fin cfg1.N,
    win1_0.index t (0 : Fin 3) = win1_4.index t (0 : Fin 3) ∧ win1_0.index t (1 : Fin 3) = win1_4.index t (1 : Fin 3)
    ∧ win1_0.index t (2 : Fin 3) = 0
    ∧ win1_1.index t (0 : Fin 3) = win1_4.index t (0 : Fin 3) ∧ win1_1.index t (1 : Fin 3) = 0 ∧ win1_1.index t (2 : Fin 3) = 0
    ∧ win1_2.index t (0 : Fin 3) = win1_4.index t (0 : Fin 3) ∧ win1_2.index t (1 : Fin 3) = 0 ∧ win1_2.index t (2 : Fin 3) = 0
    ∧ win1_3.index t (0 : Fin 3) = win1_4.index t (0 : Fin 3) ∧ win1_3.index t (1 : Fin 3) = 0 ∧ win1_3.index t (2 : Fin 3) = 0
    ∧ win1_4.index t (0 : Fin 3) ≤ 3 ∧ win1_4.index t (1 : Fin 3) ≤ 7 ∧ win1_4.index t (2 : Fin 3) = 0 :=
  (by decide +kernel : ∀ t : Fin grid1.N, _)

/-- Every (sample, row tile) is some point's. -/
theorem idx_onto1 : ∀ (q0 : Fin 4) (q1 : Fin 8), ∃ t : Fin cfg1.N, win1_4.index t = ![q0.val, q1.val, 0] :=
  (by decide +kernel : ∀ (q0 : Fin 4) (q1 : Fin 8), ∃ t : Fin grid1.N, win1_4.index t = ![q0.val, q1.val, 0])

/-- What a point writes back is its tile of the output array's function of the region-entry arrays. -/
theorem flushed1_eq (c : Dev nD) (t : Fin cfg1.N) :
    (dat1 (F := Ideal) V c).flushed 4 t = ((cfg1.win 4).blk t).view.read (Elt Ideal)
      (outArr (V c main_v4_0) (V c main_v4_1) (V c main_v4_2) (V c main_v3)) := by
  show (cfg1.win 4).cut (grid1.coords t) ((dat1 (F := Ideal) V c).after 4 t) = _
  rw [after1_4]
  unfold outsAt1
  rw [out1_closed]
  obtain ⟨e00, e01, e02, e10, e11, e12, e20, e21, e22, e30, e31, e32, l0, l1, e42⟩ := idx_facts1 t
  funext y
  obtain ⟨u, p, j, rfl⟩ : ∃ (u : Fin 1) (p : Fin 256) (j : Fin 1024), y = ix3 u p j := ⟨y 0, y 1, y 2, eq_ix3 y⟩
  have hu : u.val = 0 := by omega
  have hp := p.isLt
  have hemb : ((cfg1.win 4).blk t).view.emb (ix3 u p j)
      = ix3 (⟨win1_4.index t (0 : Fin 3), by omega⟩ : Fin 4) (⟨win1_4.index t (1 : Fin 3) * 256 + p.val, by omega⟩ : Fin 2048) j := by
    funext a; apply Fin.ext
    match a with
    | ⟨0, _⟩ => show win1_4.index t (0 : Fin 3) * 1 + 1 * u.val = win1_4.index t (0 : Fin 3); omega
    | ⟨1, _⟩ => show win1_4.index t (1 : Fin 3) * 256 + 1 * p.val = win1_4.index t (1 : Fin 3) * 256 + p.val; omega
    | ⟨2, _⟩ => show win1_4.index t (2 : Fin 3) * 1024 + 1 * j.val = j.val; omega
  show k1_pay2 (iblk1 V c 3 t) (mixTile (iblk1 V c 0 t) (iblk1 V c 1 t) (iblk1 V c 2 t)) (ix3 u p j)
    = outArr (V c main_v4_0) (V c main_v4_1) (V c main_v4_2) (V c main_v3) (((cfg1.win 4).blk t).view.emb (ix3 u p j))
  rw [hemb]
  show _ = outFrom (V c main_v4_0) (V c main_v4_1) (V c main_v4_2) (V c main_v3) (⟨win1_4.index t (0 : Fin 3), by omega⟩ : Fin 4)
    (⟨win1_4.index t (1 : Fin 3) * 256 + p.val, by omega⟩ : Fin 2048) j
  refine block_value (V c main_v4_0) (V c main_v4_1) (V c main_v4_2) (V c main_v3) (iblk1 V c 0 t) (iblk1 V c 1 t) (iblk1 V c 2 t)
    (iblk1 V c 3 t) (⟨win1_4.index t (0 : Fin 3), by omega⟩ : Fin 4) (win1_4.index t (1 : Fin 3) * 256) (by omega) ?_ ?_ ?_ ?_ u p j
  · intro p' e
    have hp' := p'.isLt
    show V c main_v4_0 (((cfg1.win 0).blk t).view.emb (ix3 (0 : Fin 1) p' e)) = _
    refine congrArg (V c main_v4_0) (funext fun a => Fin.ext ?_)
    match a with
    | ⟨0, _⟩ => show win1_0.index t (0 : Fin 3) * 1 + 1 * 0 = win1_4.index t (0 : Fin 3); omega
    | ⟨1, _⟩ => show win1_0.index t (1 : Fin 3) * 256 + 1 * p'.val = win1_4.index t (1 : Fin 3) * 256 + p'.val; omega
    | ⟨2, _⟩ => show win1_0.index t (2 : Fin 3) * 1024 + 1 * e.val = e.val; omega
  · intro m' e
    show V c main_v4_1 (((cfg1.win 1).blk t).view.emb (ix3 (0 : Fin 1) m' e)) = _
    refine congrArg (V c main_v4_1) (funext fun a => Fin.ext ?_)
    match a with
    | ⟨0, _⟩ => show win1_1.index t (0 : Fin 3) * 1 + 1 * 0 = win1_4.index t (0 : Fin 3); omega
    | ⟨1, _⟩ => show win1_1.index t (1 : Fin 3) * 2048 + 1 * m'.val = m'.val; omega
    | ⟨2, _⟩ => show win1_1.index t (2 : Fin 3) * 1024 + 1 * e.val = e.val; omega
  · intro m' e
    show V c main_v4_2 (((cfg1.win 2).blk t).view.emb (ix3 (0 : Fin 1) m' e)) = _
    refine congrArg (V c main_v4_2) (funext fun a => Fin.ext ?_)
    match a with
    | ⟨0, _⟩ => show win1_2.index t (0 : Fin 3) * 1 + 1 * 0 = win1_4.index t (0 : Fin 3); omega
    | ⟨1, _⟩ => show win1_2.index t (1 : Fin 3) * 2048 + 1 * m'.val = m'.val; omega
    | ⟨2, _⟩ => show win1_2.index t (2 : Fin 3) * 1024 + 1 * e.val = e.val; omega
  · intro e j'
    show V c main_v3 (((cfg1.win 3).blk t).view.emb (ix3 (0 : Fin 1) e j')) = _
    refine congrArg (V c main_v3) (funext fun a => Fin.ext ?_)
    match a with
    | ⟨0, _⟩ => show win1_3.index t (0 : Fin 3) * 1 + 1 * 0 = win1_4.index t (0 : Fin 3); omega
    | ⟨1, _⟩ => show win1_3.index t (1 : Fin 3) * 1024 + 1 * e.val = e.val; omega
    | ⟨2, _⟩ => show win1_3.index t (2 : Fin 3) * 1024 + 1 * j'.val = j'.val; omega

/-- An index is in a point's output tile iff each coordinate is in the tile's range. -/
theorem mem_blk1 (t : Fin cfg1.N) (i : S4x2048x1024.Idx) :
    i ∈ ((cfg1.win 4).blk t).view.set ↔ ∀ a : Fin 3, win1_4.index t a * S1x256x1024.size a ≤ (i a).val
      ∧ (i a).val < win1_4.index t a * S1x256x1024.size a + S1x256x1024.size a := by
  show i ∈ ((View.whole main_v5).slice (win1_4.rect t)).set ↔ _
  rw [View.set_slice_whole, Rect.mem_set_unit]
  exact Iff.rfl

/-- The tiles fill the output array. -/
theorem cover1 (i : S4x2048x1024.Idx) :
    ∃ t : Fin cfg1.N, (cfg1.win 4).flush t = true ∧ i ∈ ((cfg1.win 4).blk t).view.set := by
  have hi0 : (i 0).val < 4 := (i 0).isLt
  have hi1 : (i 1).val < 2048 := (i 1).isLt
  have hi2 : (i 2).val < 1024 := (i 2).isLt
  obtain ⟨t, ht⟩ := idx_onto1 ⟨(i 0).val, hi0⟩ ⟨(i 1).val / 256, by omega⟩
  have q0 : win1_4.index t (0 : Fin 3) = (i 0).val := congrFun ht 0
  have q1 : win1_4.index t (1 : Fin 3) = (i 1).val / 256 := congrFun ht 1
  have q2 : win1_4.index t (2 : Fin 3) = 0 := congrFun ht 2
  refine ⟨t, flush1_4 t, (mem_blk1 t i).mpr fun a => ?_⟩
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 256 ≤ (i 1).val ∧ (i 1).val < win1_4.index t (1 : Fin 3) * 256 + 256; omega
  | ⟨2, _⟩ => show win1_4.index t (2 : Fin 3) * 1024 ≤ (i 2).val ∧ (i 2).val < win1_4.index t (2 : Fin 3) * 1024 + 1024; omega

/-- The output array after the second kernel, from the arrays as it finds them. -/
theorem arr_out (c : Dev nD) :
    (dat1 (F := Ideal) V c).arrAt 4 cfg1.N = outArr (V c main_v4_0) (V c main_v4_1) (V c main_v4_2) (V c main_v3) :=
  (dat1 (F := Ideal) V c).arrAt_eq_of_cover 4 _ (fun t _ => flushed1_eq V c t) cover1

end

end Cert.KSide

end
-- ==== Proof.HostStretch.lean ====
/-
  The kernel program's host operations before its two kernels: four changes of float format, of the four weight
  arrays. On the extended reals a change of format is the identity, so when the first kernel is entered each
  converted buffer holds its argument's contents as launched, and the input array, which no host operation writes,
  holds its own.
-/
import proofs.«180985_j31430570672467_2_alg».proof.Proof.Gen.KernelIdeal.Frame
import Idealize.ShloMosaic.PureOps.Ideal

set_option maxRecDepth 16384

noncomputable section

namespace Cert.KSide

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- No host operation writes the input array: at the first kernel's entry it is as launched. -/
theorem W1_arg0 (c : Dev nD) :
    W1 (F := Ideal) m ρ c (Proc.devRef .tc main_arg0) = m ((c : Thread nD τ).loc main_arg0) := by
  show StableHlo.after hostOps0 (W0 m ρ c) (Proc.devRef .tc main_arg0) = _
  after_results

/-- The first converted buffer holds the first weight array as launched. -/
theorem W1_v0 (c : Dev nD) :
    (W1 (F := Ideal) m ρ c (Proc.devRef .tc main_v0) : S4x1024x1024.Idx → EReal)
      = m ((c : Thread nD τ).loc main_arg1) := by
  show (StableHlo.after hostOps0 (W0 m ρ c) (Proc.devRef .tc main_v0) : S4x1024x1024.Idx → EReal) = _
  after_results
  funext i
  rfl

/-- The second converted buffer holds the second weight array as launched. -/
theorem W1_v1 (c : Dev nD) :
    (W1 (F := Ideal) m ρ c (Proc.devRef .tc main_v1) : S4x1024x1024.Idx → EReal)
      = m ((c : Thread nD τ).loc main_arg2) := by
  show (StableHlo.after hostOps0 (W0 m ρ c) (Proc.devRef .tc main_v1) : S4x1024x1024.Idx → EReal) = _
  after_results
  funext i
  rfl

/-- The third converted buffer holds the third weight array as launched. -/
theorem W1_v2 (c : Dev nD) :
    (W1 (F := Ideal) m ρ c (Proc.devRef .tc main_v2) : S4x1024x1024.Idx → EReal)
      = m ((c : Thread nD τ).loc main_arg3) := by
  show (StableHlo.after hostOps0 (W0 m ρ c) (Proc.devRef .tc main_v2) : S4x1024x1024.Idx → EReal) = _
  after_results
  funext i
  rfl

/-- The fourth converted buffer holds the fourth weight array as launched. -/
theorem W1_v3 (c : Dev nD) :
    (W1 (F := Ideal) m ρ c (Proc.devRef .tc main_v3) : S4x1024x1024.Idx → EReal)
      = m ((c : Thread nD τ).loc main_arg4) := by
  show (StableHlo.after hostOps0 (W0 m ρ c) (Proc.devRef .tc main_v3) : S4x1024x1024.Idx → EReal) = _
  after_results
  funext i
  rfl

end Cert.KSide

end
-- ==== Proof.KernelValue.lean ====
/-
  The kernel's result is the attention array of its arguments.

  After the host's changes of format (the identity on the extended reals) the first kernel leaves the three per-sample
  products of the input with the query, key and value weights; the second kernel, finding those and the output weights,
  leaves the output array of Region1. Substituting one into the other gives `Cert.Attn.G` of the five arguments.
-/
import proofs.«180985_j31430570672467_2_alg».proof.Proof.KernelRun
import proofs.«180985_j31430570672467_2_alg».proof.Proof.Region0
import proofs.«180985_j31430570672467_2_alg».proof.Proof.Region1
import proofs.«180985_j31430570672467_2_alg».proof.Proof.HostStretch

set_option maxRecDepth 16384

noncomputable section

namespace Cert.KSide

open Idealize.ShloMosaic Idealize.ShloMosaic.ValueIdx Idealize.ShloMosaic.TcCoe Idealize.SL.Sem Cert.KernelIdeal Cert.KernelIdeal.Gen

variable (m : (ℓ : Loc nD τ sig) → Buf (Elt Ideal) ℓ) (ρ : Dev nD → PrngReg)

/-- The output array of the projected arrays is the attention array. -/
theorem outArr_proj (x : S4x2048x1024.Idx → EReal) (wq wk wv wo : S4x1024x1024.Idx → EReal) :
    outArr (fun i => Cert.Attn.proj x wq (i 0) (i 1) (i 2)) (fun i => Cert.Attn.proj x wk (i 0) (i 1) (i 2))
      (fun i => Cert.Attn.proj x wv (i 0) (i 1) (i 2)) wo = Cert.Attn.G x wq wk wv wo := rfl

/-- What the second kernel finds in the first kernel's three outputs: the per-sample products of the input with the
    query, key and value weights, all as launched. -/
theorem entry_q_w (c : Dev nD) : W2 (F := Ideal) m ρ c (Proc.devRef .tc main_v4_0)
    = fun i => Cert.Attn.proj (m ((c : Thread nD τ).loc main_arg0)) (m ((c : Thread nD τ).loc main_arg1)) (i 0) (i 1) (i 2) :=
  calc W2 (F := Ideal) m ρ c (Proc.devRef .tc main_v4_0)
    _ = (dat0 (V1 m ρ) c).arrAt 4 cfg0.N := W2_arr m ρ c 4
    _ = (fun i => Cert.Attn.proj (V1 m ρ c main_arg0) (V1 m ρ c main_v0) (i 0) (i 1) (i 2)) := R0.arr_q (V1 m ρ) c
    _ = (fun i => Cert.Attn.proj (W1 m ρ c (Proc.devRef .tc main_arg0)) (W1 m ρ c (Proc.devRef .tc main_v0)) (i 0) (i 1) (i 2)) := rfl
    _ = _ := by rw [W1_arg0, W1_v0]

theorem entry_q (c : Dev nD) : V2 (F := Ideal) m ρ c main_v4_0
    = fun i => Cert.Attn.proj (m ((c : Thread nD τ).loc main_arg0)) (m ((c : Thread nD τ).loc main_arg1)) (i 0) (i 1) (i 2) := entry_q_w m ρ c

theorem entry_k_w (c : Dev nD) : W2 (F := Ideal) m ρ c (Proc.devRef .tc main_v4_1)
    = fun i => Cert.Attn.proj (m ((c : Thread nD τ).loc main_arg0)) (m ((c : Thread nD τ).loc main_arg2)) (i 0) (i 1) (i 2) :=
  calc W2 (F := Ideal) m ρ c (Proc.devRef .tc main_v4_1)
    _ = (dat0 (V1 m ρ) c).arrAt 5 cfg0.N := W2_arr m ρ c 5
    _ = (fun i => Cert.Attn.proj (V1 m ρ c main_arg0) (V1 m ρ c main_v1) (i 0) (i 1) (i 2)) := R0.arr_k (V1 m ρ) c
    _ = (fun i => Cert.Attn.proj (W1 m ρ c (Proc.devRef .tc main_arg0)) (W1 m ρ c (Proc.devRef .tc main_v1)) (i 0) (i 1) (i 2)) := rfl
    _ = _ := by rw [W1_arg0, W1_v1]

theorem entry_k (c : Dev nD) : V2 (F := Ideal) m ρ c main_v4_1
    = fun i => Cert.Attn.proj (m ((c : Thread nD τ).loc main_arg0)) (m ((c : Thread nD τ).loc main_arg2)) (i 0) (i 1) (i 2) := entry_k_w m ρ c

theorem entry_v_w (c : Dev nD) : W2 (F := Ideal) m ρ c (Proc.devRef .tc main_v4_2)
    = fun i => Cert.Attn.proj (m ((c : Thread nD τ).loc main_arg0)) (m ((c : Thread nD τ).loc main_arg3)) (i 0) (i 1) (i 2) :=
  calc W2 (F := Ideal) m ρ c (Proc.devRef .tc main_v4_2)
    _ = (dat0 (V1 m ρ) c).arrAt 6 cfg0.N := W2_arr m ρ c 6
    _ = (fun i => Cert.Attn.proj (V1 m ρ c main_arg0) (V1 m ρ c main_v2) (i 0) (i 1) (i 2)) := R0.arr_v (V1 m ρ) c
    _ = (fun i => Cert.Attn.proj (W1 m ρ c (Proc.devRef .tc main_arg0)) (W1 m ρ c (Proc.devRef .tc main_v2)) (i 0) (i 1) (i 2)) := rfl
    _ = _ := by rw [W1_arg0, W1_v2]

theorem entry_v (c : Dev nD) : V2 (F := Ideal) m ρ c main_v4_2
    = fun i => Cert.Attn.proj (m ((c : Thread nD τ).loc main_arg0)) (m ((c : Thread nD τ).loc main_arg3)) (i 0) (i 1) (i 2) := entry_v_w m ρ c

/-- The output weights reach the second kernel as launched: the first kernel does not write them. -/
theorem entry_o (c : Dev nD) : V2 (F := Ideal) m ρ c main_v3 = (m ((c : Thread nD τ).loc main_arg4)) :=
  (W2_of_ne m ρ c main_v3 (by decide)).trans (W1_v3 m ρ c)

/-- The result array at the last boundary. -/
theorem result_value (c : Dev nD) :
    W3 (F := Ideal) m ρ c (Proc.devRef .tc main_v5)
      = Cert.Attn.G (m ((c : Thread nD τ).loc main_arg0)) (m ((c : Thread nD τ).loc main_arg1)) (m ((c : Thread nD τ).loc main_arg2)) (m ((c : Thread nD τ).loc main_arg3)) (m ((c : Thread nD τ).loc main_arg4)) := by
  refine (W3_arr m ρ c 4).trans ((arr_out (V2 m ρ) c).trans ?_)
  rw [entry_q, entry_k, entry_v, entry_o]
  exact outArr_proj _ _ _ _ _

end Cert.KSide

end
-- ==== Proof.lean ====
/-
  The kernel computes batched multi-head attention in two launches — the query, key and value projections, then the
  sixteen heads of each tile of query rows followed by the output projection — and the reference computes the same
  through four-dimensional reshapes and transposes. On the extended reals both end with the array `Cert.Attn.G` of
  the five arguments: changes of float format are the identity, a product accumulated into a zero tile and the host's
  product are the same sum, a row maximum folded from minus infinity and then compared with minus infinity again is
  the fold, and the order in which tiles and heads are visited does not matter to an entry-by-entry function.

  The three programs' runs never touch their arguments; the idealized kernel is the kernel's own text read on the
  extended reals, so there is nothing for the idealization to preserve.
-/
import proofs.«180985_j31430570672467_2_alg».proof.Defs
import proofs.«180985_j31430570672467_2_alg».proof.Proof.Gen.Kernel
import proofs.«180985_j31430570672467_2_alg».proof.Proof.Gen.Kernel.Frame
import proofs.«180985_j31430570672467_2_alg».proof.Proof.Gen.KernelIdeal
import proofs.«180985_j31430570672467_2_alg».proof.Proof.Gen.KernelIdeal.Frame
import proofs.«180985_j31430570672467_2_alg».proof.Proof.Gen.ReferenceIdeal
import proofs.«180985_j31430570672467_2_alg».proof.Proof.Gen.ReferenceIdeal.Run
import proofs.«180985_j31430570672467_2_alg».proof.Proof.Gen.ReferenceIdeal.Read
import proofs.«180985_j31430570672467_2_alg».proof.Proof.Gen.Pre_finite_inputs
import proofs.«180985_j31430570672467_2_alg».proof.Proof.RefIsSpec
import proofs.«180985_j31430570672467_2_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the attention array of the arguments. -/
theorem algebraic : Cert.algebraic_KernelIdeal_ReferenceIdeal := by
  intro m ρ m' ρ' _ hagree
  refine ⟨fun c => Cert.Attn.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
    (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · exact (θ_run Cert.KernelIdeal.defs _ _).mono (fun r h c => ⟨(h c).1.trans (Cert.KSide.result_value m ρ c), (h c).2⟩)
      (Cert.KSide.run_named (F := Ideal) m ρ)
  · refine (θ_run Cert.ReferenceIdeal.defs _ _).mono (fun r h c => ⟨?_, (h c).2⟩)
      (Cert.ReferenceIdeal.Value.run (F := Ideal) m' ρ')
    rw [(h c).1, Cert.ReferenceIdeal.Read.val_main_v26_eq, Cert.RefSide.ref_eq_spec, (hagree c).1, (hagree c).2.1,
      (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
